-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S512x128 : Shape := ⟨2, ![512, 128]⟩
abbrev S512 : Shape := ⟨1, ![512]⟩
abbrev S16x128 : Shape := ⟨2, ![16, 128]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg15 : FVec F S512 .f32) (main_arg16 : FVec F S16x128 .f32) (main_arg17 : FVec F S16 .f32) (main_v63 : IVec S_ 1) (main_v67 : IVec S_ 1) : IVec S_ 1 :=
  let main_v68 : IVec S_ 1 := andi main_v63 main_v67
  let main_v69 : FVec F S512 .f32 := Host.absf main_arg15
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S16x128 .f32 := Host.absf main_arg16
  let main_cst_28 : FVec F S_ .f32 := constant S_ .f32 0x7F800000#32
  let main_v75 : FVec F S16x128 .f32 := broadcastInDim S16x128 ![] bcast_S_S16x128 main_cst_28
  let main_v76 : IVec S16x128 1 := cmpf .olt main_v74 main_v75
  let main_c_29 : IVec S_ 1 := constantI S_ 1 1#1
  let main_v77 : IVec S_ 1 := (fun x v => Host.reduce IntOp.andi x v reducesTo_S16x128_S_d0_1 h_S_) main_v76 main_c_29
  let main_v78 : IVec S_ 1 := andi main_v73 main_v77
  let main_v79 : FVec F S16 .f32 := Host.absf main_arg17
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  main_v83

def fn_part3 {F : FTy → Type} [FloatOps F] (main_arg12 : FVec F S512x128 .f32) (main_arg13 : FVec F S512x128 .f32) (main_arg14 : FVec F S512 .f32) (main_arg15 : FVec F S512 .f32) (main_arg16 : FVec F S16x128 .f32) (main_arg17 : FVec F S16 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x128 .f32 := Host.absf main_arg12
  let main_cst_20 : FVec F S_ .f32 := constant S_ .f32 0x7F800000#32
  let main_v55 : FVec F S512x128 .f32 := broadcastInDim S512x128 ![] bcast_S_S512x128 main_cst_20
  let main_v56 : IVec S512x128 1 := cmpf .olt main_v54 main_v55
  let main_c_21 : IVec S_ 1 := constantI S_ 1 1#1
  let main_v57 : IVec S_ 1 := (fun x v => Host.reduce IntOp.andi x v reducesTo_S512x128_S_d0_1 h_S_) main_v56 main_c_21
  let main_v58 : IVec S_ 1 := andi main_v53 main_v57
  let main_v59 : FVec F S512x128 .f32 := Host.absf main_arg13
  let main_cst_22 : FVec F S_ .f32 := constant S_ .f32 0x7F800000#32
  let main_v60 : FVec F S512x128 .f32 := broadcastInDim S512x128 ![] bcast_S_S512x128 main_cst_22
  let main_v61 : IVec S512x128 1 := cmpf .olt main_v59 main_v60
  let main_c_23 : IVec S_ 1 := constantI S_ 1 1#1
  let main_v62 : IVec S_ 1 := (fun x v => Host.reduce IntOp.andi x v reducesTo_S512x128_S_d0_1 h_S_) main_v61 main_c_23
  let main_v63 : IVec S_ 1 := andi main_v58 main_v62
  let main_v64 : FVec F S512 .f32 := Host.absf main_arg14
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg15 main_arg16 main_arg17 main_v63 main_v67

def fn_part2 {F : FTy → Type} [FloatOps F] (main_arg8 : FVec F S512x128 .f32) (main_arg9 : FVec F S512x128 .f32) (main_arg10 : FVec F S512 .f32) (main_arg11 : FVec F S512 .f32) (main_arg12 : FVec F S512x128 .f32) (main_arg13 : FVec F S512x128 .f32) (main_arg14 : FVec F S512 .f32) (main_arg15 : FVec F S512 .f32) (main_arg16 : FVec F S16x128 .f32) (main_arg17 : FVec F S16 .f32) (main_v33 : IVec S_ 1) : IVec S_ 1 :=
  let main_v34 : FVec F S512x128 .f32 := Host.absf main_arg8
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S512x128 .f32 := Host.absf main_arg9
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg12 main_arg13 main_arg14 main_arg15 main_arg16 main_arg17 main_v48 main_v49 main_v50

def fn_part1 {F : FTy → Type} [FloatOps F] (main_arg5 : FVec F S512x128 .f32) (main_arg6 : FVec F S512 .f32) (main_arg7 : FVec F S512 .f32) (main_arg8 : FVec F S512x128 .f32) (main_arg9 : FVec F S512x128 .f32) (main_arg10 : FVec F S512 .f32) (main_arg11 : FVec F S512 .f32) (main_arg12 : FVec F S512x128 .f32) (main_arg13 : FVec F S512x128 .f32) (main_arg14 : FVec F S512 .f32) (main_arg15 : FVec F S512 .f32) (main_arg16 : FVec F S16x128 .f32) (main_arg17 : FVec F S16 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S512x128 .f32 := Host.absf main_arg5
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x256 .f32) (main_arg1 : IVec S2x1600000 32) (main_arg2 : FVec F S128x256 .f32) (main_arg3 : FVec F S128 .f32) (main_arg4 : FVec F S512x128 .f32) (main_arg5 : FVec F S512x128 .f32) (main_arg6 : FVec F S512 .f32) (main_arg7 : FVec F S512 .f32) (main_arg8 : FVec F S512x128 .f32) (main_arg9 : FVec F S512x128 .f32) (main_arg10 : FVec F S512 .f32) (main_arg11 : FVec F S512 .f32) (main_arg12 : FVec F S512x128 .f32) (main_arg13 : FVec F S512x128 .f32) (main_arg14 : FVec F S512 .f32) (main_arg15 : FVec F S512 .f32) (main_arg16 : FVec F S16x128 .f32) (main_arg17 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S512x128 : Shape := ⟨2, ![512, 128]⟩
abbrev S512 : Shape := ⟨1, ![512]⟩
abbrev S16x128 : Shape := ⟨2, ![16, 128]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S256x128 : Shape := ⟨2, ![256, 128]⟩
abbrev S100000x128 : Shape := ⟨2, ![100000, 128]⟩
abbrev S4000x256 : Shape := ⟨2, ![4000, 256]⟩
abbrev S4000x1 : Shape := ⟨2, ![4000, 1]⟩
abbrev S4000x128 : Shape := ⟨2, ![4000, 128]⟩
abbrev S1600000x128 : Shape := ⟨2, ![1600000, 128]⟩
abbrev S1x128 : Shape := ⟨2, ![1, 128]⟩
abbrev S1x512 : Shape := ⟨2, ![1, 512]⟩
abbrev S128x512 : Shape := ⟨2, ![128, 512]⟩
abbrev S128x16 : Shape := ⟨2, ![128, 16]⟩
abbrev S1x16 : Shape := ⟨2, ![1, 16]⟩
abbrev S100000x16 : Shape := ⟨2, ![100000, 16]⟩
abbrev S2000x128 : Shape := ⟨2, ![2000, 128]⟩
abbrev S2000x1 : Shape := ⟨2, ![2000, 1]⟩
abbrev S2000x16 : Shape := ⟨2, ![2000, 16]⟩
abbrev S2000x512 : Shape := ⟨2, ![2000, 512]⟩

abbrev nBuf : Space → Nat
  | .hbm => 63
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128, .f32⟩
  | .hbm, ⟨4, _⟩ => ⟨S512x128, .f32⟩
  | .hbm, ⟨5, _⟩ => ⟨S512x128, .f32⟩
  | .hbm, ⟨6, _⟩ => ⟨S512, .f32⟩
  | .hbm, ⟨7, _⟩ => ⟨S512, .f32⟩
  | .hbm, ⟨8, _⟩ => ⟨S512x128, .f32⟩
  | .hbm, ⟨9, _⟩ => ⟨S512x128, .f32⟩
  | .hbm, ⟨10, _⟩ => ⟨S512, .f32⟩
  | .hbm, ⟨11, _⟩ => ⟨S512, .f32⟩
  | .hbm, ⟨12, _⟩ => ⟨S512x128, .f32⟩
  | .hbm, ⟨13, _⟩ => ⟨S512x128, .f32⟩
  | .hbm, ⟨14, _⟩ => ⟨S512, .f32⟩
  | .hbm, ⟨15, _⟩ => ⟨S512, .f32⟩
  | .hbm, ⟨16, _⟩ => ⟨S16x128, .f32⟩
  | .hbm, ⟨17, _⟩ => ⟨S16, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S256x128, .f32⟩
  | .hbm, ⟨34, _⟩ => ⟨S100000x128, .bf16⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .bf16⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S1x128, .f32⟩
  | .hbm, ⟨51, _⟩ => ⟨S512, .f32⟩
  | .hbm, ⟨52, _⟩ => ⟨S1x512, .f32⟩
  | .hbm, ⟨53, _⟩ => ⟨S512, .f32⟩
  | .hbm, ⟨54, _⟩ => ⟨S1x512, .f32⟩
  | .hbm, ⟨55, _⟩ => ⟨S512, .f32⟩
  | .hbm, ⟨56, _⟩ => ⟨S1x512, .f32⟩
  | .hbm, ⟨57, _⟩ => ⟨S128x512, .f32⟩
  | .hbm, ⟨58, _⟩ => ⟨S128x512, .f32⟩
  | .hbm, ⟨59, _⟩ => ⟨S128x512, .f32⟩
  | .hbm, ⟨60, _⟩ => ⟨S128x16, .f32⟩
  | .hbm, ⟨61, _⟩ => ⟨S1x16, .f32⟩
  | .hbm, ⟨62, _⟩ => ⟨S100000x16, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x1, .f32⟩
  | .local _ .vmem, ⟨4, _⟩ => ⟨S4000x1, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S2000x128, .f32⟩
  | .local _ .vmem, ⟨10, _⟩ => ⟨S2000x128, .f32⟩
  | .local _ .vmem, ⟨11, _⟩ => ⟨S2000x1, .f32⟩
  | .local _ .vmem, ⟨12, _⟩ => ⟨S2000x1, .f32⟩
  | .local _ .vmem, ⟨13, _⟩ => ⟨S2000x128, .f32⟩
  | .local _ .vmem, ⟨14, _⟩ => ⟨S2000x128, .f32⟩
  | .local _ .vmem, ⟨15, _⟩ => ⟨S1x128, .f32⟩
  | .local _ .vmem, ⟨16, _⟩ => ⟨S128x512, .f32⟩
  | .local _ .vmem, ⟨17, _⟩ => ⟨S1x512, .f32⟩
  | .local _ .vmem, ⟨18, _⟩ => ⟨S128x512, .f32⟩
  | .local _ .vmem, ⟨19, _⟩ => ⟨S1x512, .f32⟩
  | .local _ .vmem, ⟨20, _⟩ => ⟨S128x512, .f32⟩
  | .local _ .vmem, ⟨21, _⟩ => ⟨S1x512, .f32⟩
  | .local _ .vmem, ⟨22, _⟩ => ⟨S128x16, .f32⟩
  | .local _ .vmem, ⟨23, _⟩ => ⟨S1x16, .f32⟩
  | .local _ .vmem, ⟨24, _⟩ => ⟨S2000x16, .f32⟩
  | .local _ .vmem, ⟨25, _⟩ => ⟨S2000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13_0 : Ref sig .tc := ⟨.hbm, 34, rfl⟩
abbrev main_v13_1 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_2 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_3 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg12_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem12_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x16 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x16 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S2000x16 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  transposes_S128x256_S256x128_1_0 : S128x256.Transposes [1, 0] S256x128
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S128_S1x128 : S128.ShapeCasts S1x128
  shapeCasts_S512_S1x512 : S512.ShapeCasts S1x512
  transposes_S512x128_S128x512_1_0 : S512x128.Transposes [1, 0] S128x512
  transposes_S16x128_S128x16_1_0 : S16x128.Transposes [1, 0] S128x16
  shapeCasts_S16_S1x16 : S16.ShapeCasts S1x16
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  slices_S2000x512_o0_0_S2000x128 : S2000x512.Slices ![0, 0] S2000x128
  slices_S2000x512_o0_128_S2000x128 : S2000x512.Slices ![0, 128] S2000x128
  slices_S2000x512_o0_256_S2000x128 : S2000x512.Slices ![0, 256] S2000x128
  slices_S2000x512_o0_384_S2000x128 : S2000x512.Slices ![0, 384] S2000x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  scatter_S100000_S1600000x1_S1600000_n_0_0_1_wf : ScatterDims.WF S100000 S1600000x1 S1600000 [] [0] [0] 1
  dot_S4000x256_S256x128_S4000x128_1_0_0_1_n_n_wf : DotDims.WF S4000x256 S256x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x512_S2000x512_1_0_0_1_n_n_wf : DotDims.WF S2000x128 S128x512 S2000x512 [1] [0] [0] [1] [] []
  dot_S2000x128_S128x16_S2000x16_1_0_0_1_n_n_wf : DotDims.WF S2000x128 S128x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x512.size a ≤ S128x512.size a
  hwx1_4 : ∀ i : grid1.Coords, EltTy.bits .f32 = 32 ∨ (Rect.block (s := S128x512) S128x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x512.size a ≤ S128x512.size a
  hwx1_6 : ∀ i : grid1.Coords, EltTy.bits .f32 = 32 ∨ (Rect.block (s := S128x512) S128x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x512.size a ≤ S128x512.size a
  hwx1_8 : ∀ i : grid1.Coords, EltTy.bits .f32 = 32 ∨ (Rect.block (s := S128x512) S128x512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x512.size a ≤ S1x512.size a
  hwx1_9 : ∀ i : grid1.Coords, EltTy.bits .f32 = 32 ∨ (Rect.block (s := S1x512) S1x512.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x16.size a ≤ S128x16.size a
  hwx1_10 : ∀ i : grid1.Coords, EltTy.bits .f32 = 32 ∨ (Rect.block (s := S128x16) S128x16.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x16.size a ≤ S1x16.size a
  hwx1_11 : ∀ i : grid1.Coords, EltTy.bits .f32 = 32 ∨ (Rect.block (s := S1x16) S1x16.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x16.size a ≤ S100000x16.size a
  hwx1_12 : ∀ i : grid1.Coords, EltTy.bits .f32 = 32 ∨ (Rect.block (s := S100000x16) S2000x16.size (cc1_transform_12 i) (hinb1_12 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S4000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13_1) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S128x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S128x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34) S128x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v31) S1x512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v35) S128x16.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v36) S1x16.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v37) S2000x16.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S512x128 : Shape := ⟨2, ![512, 128]⟩
abbrev S512 : Shape := ⟨1, ![512]⟩
abbrev S16x128 : Shape := ⟨2, ![16, 128]⟩
abbrev S16 : Shape := ⟨1, ![16]⟩
abbrev S256x128 : Shape := ⟨2, ![256, 128]⟩
abbrev S100000x128 : Shape := ⟨2, ![100000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S128x512 : Shape := ⟨2, ![128, 512]⟩
abbrev S100000x512 : Shape := ⟨2, ![100000, 512]⟩
abbrev S1x512 : Shape := ⟨2, ![1, 512]⟩
abbrev S128x16 : Shape := ⟨2, ![128, 16]⟩
abbrev S100000x16 : Shape := ⟨2, ![100000, 16]⟩
abbrev S1x16 : Shape := ⟨2, ![1, 16]⟩

abbrev nBuf : Space → Nat
  | .hbm => 183
  | .vmem => 0
  | .smem => 0
  | _ => 0

abbrev hbmTy0_0 (i : Nat) : BufTy := match i % 128 with
  | 0 => ⟨S100000x256, .f32⟩
  | 1 => ⟨S2x1600000, .i32⟩
  | 2 => ⟨S128x256, .f32⟩
  | 3 => ⟨S128, .f32⟩
  | 4 => ⟨S512x128, .f32⟩
  | 5 => ⟨S512x128, .f32⟩
  | 6 => ⟨S512, .f32⟩
  | 7 => ⟨S512, .f32⟩
  | 8 => ⟨S512x128, .f32⟩
  | 9 => ⟨S512x128, .f32⟩
  | 10 => ⟨S512, .f32⟩
  | 11 => ⟨S512, .f32⟩
  | 12 => ⟨S512x128, .f32⟩
  | 13 => ⟨S512x128, .f32⟩
  | 14 => ⟨S512, .f32⟩
  | 15 => ⟨S512, .f32⟩
  | 16 => ⟨S16x128, .f32⟩
  | 17 => ⟨S16, .f32⟩
  | 18 => ⟨S256x128, .f32⟩
  | 19 => ⟨S100000x128, .f32⟩
  | 20 => ⟨S100000, .i32⟩
  | 21 => ⟨S1x1600000, .i32⟩
  | 22 => ⟨S1600000, .i32⟩
  | 23 => ⟨S1700000, .i32⟩
  | 24 => ⟨S1x1600000, .i32⟩
  | 25 => ⟨S1600000, .i32⟩
  | 26 => ⟨S1700000, .i32⟩
  | 27 => ⟨S_, .f32⟩
  | 28 => ⟨S1700000, .f32⟩
  | 29 => ⟨S_, .f32⟩
  | 30 => ⟨S100000, .f32⟩
  | 31 => ⟨S1700000x1, .i32⟩
  | 32 => ⟨S100000, .f32⟩
  | 33 => ⟨S_, .f32⟩
  | 34 => ⟨S100000, .f32⟩
  | 35 => ⟨S100000, .i1⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x128, .f32⟩
  | 69 => ⟨S1700000x1, .f32⟩
  | 70 => ⟨S1700000x128, .f32⟩
  | 71 => ⟨S1700000x128, .f32⟩
  | 72 => ⟨S_, .f32⟩
  | 73 => ⟨S100000x128, .f32⟩
  | 74 => ⟨S1700000x1, .i32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S128x512, .f32⟩
  | 83 => ⟨S100000x512, .f32⟩
  | 84 => ⟨S1x512, .f32⟩
  | 85 => ⟨S100000x512, .f32⟩
  | 86 => ⟨S100000x512, .f32⟩
  | 87 => ⟨S1x512, .f32⟩
  | 88 => ⟨S100000x512, .f32⟩
  | 89 => ⟨S100000x512, .f32⟩
  | 90 => ⟨S100000x128, .f32⟩
  | 91 => ⟨S100000x128, .f32⟩
  | 92 => ⟨S100000x128, .f32⟩
  | 93 => ⟨S100000x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S100000x128, .f32⟩
  | 103 => ⟨S100000x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S100000x128, .f32⟩
  | 113 => ⟨S100000x128, .f32⟩
  | 114 => ⟨S128x512, .f32⟩
  | 115 => ⟨S100000x512, .f32⟩
  | 116 => ⟨S1x512, .f32⟩
  | 117 => ⟨S100000x512, .f32⟩
  | 118 => ⟨S100000x512, .f32⟩
  | 119 => ⟨S1x512, .f32⟩
  | 120 => ⟨S100000x512, .f32⟩
  | 121 => ⟨S100000x512, .f32⟩
  | 122 => ⟨S100000x128, .f32⟩
  | 123 => ⟨S100000x128, .f32⟩
  | 124 => ⟨S100000x128, .f32⟩
  | 125 => ⟨S100000x128, .f32⟩
  | 126 => ⟨S100000x128, .f32⟩
  | 127 => ⟨S100000x128, .f32⟩
  | _ => ⟨S100000x256, .f32⟩

abbrev hbmTy0_1 (i : Nat) : BufTy := match i % 128 with
  | 0 => ⟨S_, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000x128, .f32⟩
  | 7 => ⟨S100000x128, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S100000x128, .f32⟩
  | 17 => ⟨S100000x128, .f32⟩
  | 18 => ⟨S128x512, .f32⟩
  | 19 => ⟨S100000x512, .f32⟩
  | 20 => ⟨S1x512, .f32⟩
  | 21 => ⟨S100000x512, .f32⟩
  | 22 => ⟨S100000x512, .f32⟩
  | 23 => ⟨S1x512, .f32⟩
  | 24 => ⟨S100000x512, .f32⟩
  | 25 => ⟨S100000x512, .f32⟩
  | 26 => ⟨S100000x128, .f32⟩
  | 27 => ⟨S100000x128, .f32⟩
  | 28 => ⟨S100000x128, .f32⟩
  | 29 => ⟨S100000x128, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S100000x128, .f32⟩
  | 39 => ⟨S100000x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S100000x128, .f32⟩
  | 49 => ⟨S100000x128, .f32⟩
  | 50 => ⟨S128x16, .f32⟩
  | 51 => ⟨S100000x16, .f32⟩
  | 52 => ⟨S1x16, .f32⟩
  | 53 => ⟨S100000x16, .f32⟩
  | 54 => ⟨S100000x16, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v16 : Ref sig .tc := ⟨.hbm, 40, rfl⟩
abbrev main_c : Ref sig .tc := ⟨.hbm, 41, rfl⟩
abbrev main_v17 : Ref sig .tc := ⟨.hbm, 42, rfl⟩
abbrev main_v18 : Ref sig .tc := ⟨.hbm, 43, rfl⟩
abbrev main_c_3 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_4 : Ref sig .tc := ⟨.hbm, 50, rfl⟩
abbrev main_v24 : Ref sig .tc := ⟨.hbm, 51, rfl⟩
abbrev main_v25 : Ref sig .tc := ⟨.hbm, 52, rfl⟩
abbrev main_c_5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_6 : Ref sig .tc := ⟨.hbm, 60, rfl⟩
abbrev main_v32 : Ref sig .tc := ⟨.hbm, 61, rfl⟩
abbrev main_v33 : Ref sig .tc := ⟨.hbm, 62, rfl⟩
abbrev main_c_7 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_call1_cst : Ref sig .tc := ⟨.hbm, 79, rfl⟩
abbrev main_call1_v0 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_9 : Ref sig .tc := ⟨.hbm, 96, rfl⟩
abbrev main_v63 : Ref sig .tc := ⟨.hbm, 97, rfl⟩
abbrev main_v64 : Ref sig .tc := ⟨.hbm, 98, rfl⟩
abbrev main_cst_10 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_11 : Ref sig .tc := ⟨.hbm, 106, rfl⟩
abbrev main_v71 : Ref sig .tc := ⟨.hbm, 107, rfl⟩
abbrev main_v72 : Ref sig .tc := ⟨.hbm, 108, rfl⟩
abbrev main_cst_12 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_13 : Ref sig .tc := ⟨.hbm, 128, rfl⟩
abbrev main_v91 : Ref sig .tc := ⟨.hbm, 129, rfl⟩
abbrev main_v92 : Ref sig .tc := ⟨.hbm, 130, rfl⟩
abbrev main_cst_14 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_15 : Ref sig .tc := ⟨.hbm, 138, rfl⟩
abbrev main_v99 : Ref sig .tc := ⟨.hbm, 139, rfl⟩
abbrev main_v100 : Ref sig .tc := ⟨.hbm, 140, rfl⟩
abbrev main_cst_16 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_17 : Ref sig .tc := ⟨.hbm, 160, rfl⟩
abbrev main_v119 : Ref sig .tc := ⟨.hbm, 161, rfl⟩
abbrev main_v120 : Ref sig .tc := ⟨.hbm, 162, rfl⟩
abbrev main_cst_18 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_cst_19 : Ref sig .tc := ⟨.hbm, 170, rfl⟩
abbrev main_v127 : Ref sig .tc := ⟨.hbm, 171, rfl⟩
abbrev main_v128 : Ref sig .tc := ⟨.hbm, 172, rfl⟩
abbrev main_cst_20 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩

abbrev nD : Nat := 1
abbrev τ : Topo := Topo.v7x

variable {F : FTy → Type} [FloatOps F]

class Facts₀ : Prop where
  transposes_S128x256_S256x128_1_0 : S128x256.Transposes [1, 0] S256x128
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S512x128_S128x512_1_0 : S512x128.Transposes [1, 0] S128x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  slices_S100000x512_S100000x128_0_0 : S100000x512.Slices ![0, 0] S100000x128
  slices_S100000x512_S100000x128_0_128 : S100000x512.Slices ![0, 128] S100000x128
  slices_S100000x512_S100000x128_0_256 : S100000x512.Slices ![0, 256] S100000x128
  slices_S100000x512_S100000x128_0_384 : S100000x512.Slices ![0, 384] S100000x128
  transposes_S16x128_S128x16_1_0 : S16x128.Transposes [1, 0] S128x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x512_S100000x512_1_0_0_1_n_n_wf : DotDims.WF S100000x128 S128x512 S100000x512 [1] [0] [0] [1] [] []
  dot_S100000x128_S128x16_S100000x16_1_0_0_1_n_n_wf : DotDims.WF S100000x128 S128x16 S100000x16 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.LibGraphSum.lean ====
/-
  Sums over the edges of a graph with self-loops, on the extended reals.

  A graph convolution adds, into node `i`, one term per edge that arrives at `i`. With the symmetric normalisation every
  term carries the factor `a[src] · a[dst]`, and `a[dst] = a[i]` on every edge that arrives at `i`; with self-loops the edge
  list is the given edges followed by one loop `(j, j)` per node. This file has the arithmetic that lets the factor
  `a[i]` be taken out of the sum and the loops be summed apart:

  * `sum_mul_of_nonneg`: a finite sum times a non-negative REAL factor is the sum of the products. (On the extended reals
    right-distributivity fails in general — `(⊤ + ⊥) · x` — but it holds for a factor in `[0, ∞)`, whatever the terms.)
  * `sum_filter_add`, `sum_filter_split`: a filtered sum over `m + n` positions is the filtered sum over the first `m`
    plus the one over the last `n`.
  * `sum_filter_self`: a filtered sum whose filter holds of exactly one position is the term there.
  * `toInt_ofNat_of_lt`: a node number below `2^31`, written as a 32-bit integer and read signed, is itself.
  * `select_neg_of_nonneg`: the "add the extent to a negative index" normalisation leaves a non-negative index alone.
  * `sum_ones`, `rsqrt_count`: a sum of ones is the number of terms, and the inverse square root of one plus such a
    count is a real number in `[0, ∞)`.
  * `gt_zero_count`: one plus a count is positive, so a `where(deg > 0, f deg, 0)` takes its first branch there.
-/
import Idealize.ShloMosaic.Lib.ValueIdx
import Idealize.ShloMosaic.PureOps.Ideal.Laws

noncomputable section

namespace GraphSum

open Idealize.ShloMosaic

/-! ## Taking a non-negative real factor out of a sum -/

theorem sum_mul_of_nonneg {ι : Type*} (S : Finset ι) (t : ι → EReal) {d : EReal} (h0 : 0 ≤ d) (ht : d ≠ ⊤) :
    (∑ j ∈ S, t j) * d = ∑ j ∈ S, t j * d := by
  classical
  induction S using Finset.induction_on with
  | empty => simp
  | insert a s ha ih =>
    rw [Finset.sum_insert ha, Finset.sum_insert ha, EReal.right_distrib_of_nonneg_of_ne_top h0 ht, ih]

/-! ## Splitting a sum over a list of positions followed by another -/

theorem sum_filter_add {M : Type*} [AddCommMonoid M] {m n : Nat} (p : Fin (m + n) → Prop) [DecidablePred p]
    (f : Fin (m + n) → M) :
    ∑ e ∈ Finset.univ.filter p, f e
      = ∑ e ∈ Finset.univ.filter (fun e : Fin m => p (Fin.castAdd n e)), f (Fin.castAdd n e)
        + ∑ j ∈ Finset.univ.filter (fun j : Fin n => p (Fin.natAdd m j)), f (Fin.natAdd m j) := by
  rw [Finset.sum_filter, Fin.sum_univ_add, ← Finset.sum_filter, ← Finset.sum_filter]

/-- The same for a list of `M = m + n` positions: the first `m` and the last `n`, each re-read as a position of the whole. -/
theorem sum_filter_split {A : Type*} [AddCommMonoid A] {M m n : Nat} (hM : m + n = M) (p : Fin M → Prop) [DecidablePred p]
    (f : Fin M → A) :
    ∑ e ∈ Finset.univ.filter p, f e
      = ∑ e ∈ Finset.univ.filter (fun e : Fin m => p (Fin.cast hM (Fin.castAdd n e))), f (Fin.cast hM (Fin.castAdd n e))
        + ∑ j ∈ Finset.univ.filter (fun j : Fin n => p (Fin.cast hM (Fin.natAdd m j))), f (Fin.cast hM (Fin.natAdd m j)) := by
  subst hM
  exact sum_filter_add p f

theorem sum_filter_self {M : Type*} [AddCommMonoid M] {n : Nat} (i : Fin n) (p : Fin n → Prop) [DecidablePred p]
    (hp : ∀ j, p j ↔ j = i) (f : Fin n → M) : ∑ j ∈ Finset.univ.filter p, f j = f i := by
  have e : Finset.univ.filter p = {i} := by
    ext j
    simp [hp]
  rw [e, Finset.sum_singleton]

/-! ## Node numbers as 32-bit integers -/

theorem toInt_ofNat_of_lt {j : Nat} (h : j < 2 ^ 31) : (BitVec.ofNat 32 j).toInt = (j : Int) := by
  have h2 : j % 2 ^ 32 = j := Nat.mod_eq_of_lt (by omega)
  rw [BitVec.toInt_eq_toNat_cond, BitVec.toNat_ofNat, h2]
  split
  · rfl
  · omega

theorem select_neg_of_nonneg (x y : BitVec 32) (h : 0 ≤ x.toInt) :
    Scalar.select (IntOp.cmpi .slt x 0#32) y x = x := by
  have hs : x.slt 0#32 = false := by
    simp only [BitVec.slt, BitVec.toInt_zero, decide_eq_false_iff_not, not_lt]
    exact h
  unfold Scalar.select IntOp.cmpi
  simp only [hs]
  rfl

/-! ## Degrees: one plus a count -/

theorem sum_ones {ι : Type*} (S : Finset ι) : ∑ _j ∈ S, (1 : EReal) = ((S.card : ℝ) : EReal) := by
  classical
  induction S using Finset.induction_on with
  | empty => simp
  | insert a s ha ih =>
    rw [Finset.sum_insert ha, ih, Finset.card_insert_of_notMem ha, ← EReal.coe_one, ← EReal.coe_add]
    congr 1
    push_cast
    ring

/-- One plus a count, as a real number that is at least one. -/
theorem count_succ {ι : Type*} (S : Finset ι) :
    ∃ r : ℝ, 1 ≤ r ∧ (0 + ∑ _j ∈ S, (1 : EReal)) + 1 = (r : EReal) := by
  refine ⟨(S.card : ℝ) + 1, by have : (0 : ℝ) ≤ (S.card : ℝ) := Nat.cast_nonneg _; linarith, ?_⟩
  rw [zero_add, sum_ones, ← EReal.coe_one, ← EReal.coe_add]

/-- The inverse square root of a real number that is at least one is a real number in `[0, ∞)`. -/
theorem rsqrt_of_one_le {r : ℝ} (h : 1 ≤ r) : 0 ≤ Ideal.rsqrt (r : EReal) ∧ Ideal.rsqrt (r : EReal) ≠ ⊤ := by
  have hpos : 0 < r := by linarith
  rw [Ideal.rsqrt_coe, if_neg (not_lt.mpr hpos.le), if_neg hpos.ne']
  exact ⟨by exact_mod_cast (inv_nonneg.mpr (Real.sqrt_nonneg r)), EReal.coe_ne_top _⟩

/-- A real number that is at least one is greater than zero, as extended reals compare. -/
theorem cmp_ogt_zero_of_one_le {r : ℝ} (h : 1 ≤ r) : Ideal.cmp .ogt (r : EReal) 0 = 1 := by
  have hpos : (0 : EReal) < (r : EReal) := by exact_mod_cast (by linarith : (0 : ℝ) < r)
  unfold Ideal.cmp
  simp [hpos]

end GraphSum

end
-- ==== Proof.LibGraphConv.lean ====
/-
  A symmetric-normalised graph convolution with self-loops, written two ways, on the extended reals.

  Nodes are `Fin N`; the `E` edges are given by the row `row e` of the feature table that edge `e` reads (its source) and by
  the 32-bit integer `dst e` it is scattered to: the edge arrives at node `i` exactly when `dst e`, read signed, is `i`
  (an edge whose integer is negative or at least `N` arrives nowhere). The degree of a node is one (its self-loop) plus the
  number of edges that arrive at it, and `dinv` is its inverse square root.

  * THE SCALED FORM: scale every table row by its `dinv`, add up the rows that arrive at `i`, scale the sum by `dinv i`,
    and add the self-loop's term `X i · dinv i · dinv i` apart.
  * THE EDGE-LIST FORM: append to the edge list one loop `(j, j)` per node; give every position the weight
    `dinv[src] · dinv[dst]`; add up what arrives at `i`. Its degree is the count over the longer list, guarded by
    `where(deg > 0, rsqrt deg, 0)`.

  `deg_loops`, `guard_eq` and `conv_eq` say the two forms agree: the degree over the longer list is the one above, the guard
  always takes its first branch (a degree is at least one), and the sums agree because `dinv[dst] = dinv i` on every
  position that arrives at `i` and `dinv i` — a real number in `[0, ∞)` — may be taken out of the sum whatever the table holds.
-/
import proofs.«114264_j41979010351135_2_alg».proof.Proof.LibGraphSum

noncomputable section

namespace GraphConv

open Idealize.ShloMosaic GraphSum

variable {N E C : Nat}

/-- The positions whose integer, read signed, is node `i`. -/
def into {M : Nat} (dst : Fin M → BitVec 32) (i : Fin N) : Finset (Fin M) :=
  Finset.univ.filter fun e => (dst e).toInt = (i.val : Int)

/-- One plus the number of edges that arrive at `i`. -/
def deg (dst : Fin E → BitVec 32) (i : Fin N) : EReal := (0 + ∑ _e ∈ into dst i, (1 : EReal)) + 1

def dinv (dst : Fin E → BitVec 32) (i : Fin N) : EReal := Ideal.rsqrt (deg dst i)

theorem dinv_nonneg (dst : Fin E → BitVec 32) (i : Fin N) : 0 ≤ dinv dst i ∧ dinv dst i ≠ ⊤ := by
  obtain ⟨r, hr, e⟩ := count_succ (into dst i)
  unfold dinv deg
  rw [e]
  exact rsqrt_of_one_le hr

/-- The scaled form, entry `(i, c)`, with the bias added and the result clamped at zero from below. -/
def scaled (X : Fin N → Fin C → EReal) (row : Fin E → Fin N) (dst : Fin E → BitVec 32) (b : Fin C → EReal)
    (i : Fin N) (c : Fin C) : EReal :=
  max (dinv dst i * (0 + ∑ e ∈ into dst i, X (row e) c * dinv dst (row e)) + X i c * dinv dst i * dinv dst i + b c) 0

section Loops

variable {M : Nat} (hM : E + N = M)

/-- Edge `e` and loop `j` as positions of the longer list: the edges come first. -/
def edgeAt (e : Fin E) : Fin M := Fin.cast hM (Fin.castAdd N e)
def loopAt (j : Fin N) : Fin M := Fin.cast hM (Fin.natAdd E j)

theorem edgeAt_val (e : Fin E) : (edgeAt hM e).val = e.val := rfl
theorem loopAt_val (j : Fin N) : (loopAt hM j).val = E + j.val := rfl

variable (dst : Fin E → BitVec 32) (dst' : Fin M → BitVec 32)
  (h1 : ∀ e : Fin E, dst' (edgeAt hM e) = dst e)
  (h2 : ∀ j : Fin N, (dst' (loopAt hM j)).toInt = (j.val : Int))

include h1 in
theorem into_edges (i : Fin N) :
    (Finset.univ.filter fun e : Fin E => (dst' (edgeAt hM e)).toInt = (i.val : Int)) = into dst i := by
  unfold into
  simp only [h1]

include h2 in
theorem loop_iff (i j : Fin N) : (dst' (loopAt hM j)).toInt = (i.val : Int) ↔ j = i := by
  rw [h2 j]
  constructor
  · intro h; exact Fin.ext (by exact_mod_cast h)
  · rintro rfl; rfl

include h1 h2 in
/-- A sum over the positions of the longer list that arrive at `i`: the edges that arrive at `i`, and loop `i`. -/
theorem sum_into_loops {A : Type*} [AddCommMonoid A] (f : Fin M → A) (i : Fin N) :
    ∑ e' ∈ into dst' i, f e' = ∑ e ∈ into dst i, f (edgeAt hM e) + f (loopAt hM i) := by
  unfold into
  rw [sum_filter_split hM]
  show ∑ e ∈ Finset.univ.filter (fun e : Fin E => (dst' (edgeAt hM e)).toInt = (i.val : Int)), f (edgeAt hM e)
      + ∑ j ∈ Finset.univ.filter (fun j : Fin N => (dst' (loopAt hM j)).toInt = (i.val : Int)), f (loopAt hM j) = _
  rw [sum_filter_self i _ (loop_iff hM dst' h2 i)]
  congr 1
  exact Finset.sum_congr (into_edges hM dst dst' h1 i) fun _ _ => rfl

include h1 h2 in
/-- The degree counted over the longer list is one plus the count over the edges. -/
theorem deg_loops (i : Fin N) : (0 + ∑ _e' ∈ into dst' i, (1 : EReal)) = deg dst i := by
  rw [sum_into_loops hM dst dst' h1 h2 (fun _ => (1 : EReal)) i]
  unfold deg
  rw [zero_add, zero_add]

include h1 h2 in
/-- The guarded inverse square root of the degree over the longer list is `dinv`: the guard holds. -/
theorem guard_eq (i : Fin N) (z : EReal) :
    Scalar.select (Ideal.cmp .ogt (0 + ∑ _e' ∈ into dst' i, (1 : EReal)) 0) (Ideal.rsqrt (0 + ∑ _e' ∈ into dst' i, (1 : EReal))) z
      = dinv dst i := by
  rw [deg_loops hM dst dst' h1 h2 i]
  obtain ⟨r, hr, e⟩ := count_succ (into dst i)
  have e' : deg dst i = (r : EReal) := e
  unfold dinv
  rw [e', cmp_ogt_zero_of_one_le hr]
  rfl

include h1 h2 in
/-- THE TWO FORMS AGREE. `rowS`, `rowD` are the table rows a position's source and destination read; on an edge the source is
    the edge's, on loop `j` it is `j`; a position that arrives at `i` has destination row `i`. -/
theorem conv_eq (X : Fin N → Fin C → EReal) (row : Fin E → Fin N) (b : Fin C → EReal)
    (rowS rowD : Fin M → Fin N)
    (h3 : ∀ e : Fin E, rowS (edgeAt hM e) = row e) (h4 : ∀ j : Fin N, rowS (loopAt hM j) = j)
    (h5 : ∀ (e' : Fin M) (i : Fin N), (dst' e').toInt = (i.val : Int) → rowD e' = i)
    (i : Fin N) (c : Fin C) :
    max ((0 + ∑ e' ∈ into dst' i, X (rowS e') c * (dinv dst (rowS e') * dinv dst (rowD e'))) + b c) 0
      = scaled X row dst b i c := by
  obtain ⟨d0, dt⟩ := dinv_nonneg dst i
  unfold scaled
  rw [sum_into_loops hM dst dst' h1 h2 _ i, h4 i, h5 (loopAt hM i) i (h2 i), zero_add, zero_add,
    mul_comm (dinv dst i) (∑ e ∈ into dst i, X (row e) c * dinv dst (row e)), sum_mul_of_nonneg _ _ d0 dt, mul_assoc (X i c)]
  congr 3
  refine Finset.sum_congr rfl fun e he => ?_
  rw [h3 e, h5 (edgeAt hM e) i (by rw [h1 e]; exact (Finset.mem_filter.mp he).2), mul_assoc]

end Loops

end GraphConv

end
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.LibDenseLayer.lean ====
/-
  A dense layer and the gated activation, as whole-array functions over the extended reals.

  For a [P, K] array x, a [K, Q] array W and a row b of length Q the dense layer is
      dense x W b (p, q) = (∑ k, x (p, k) · W (k, q)) + b q,
  and the activation is y ↦ y · σ(y) with σ y = 1 / (1 + e^(-y)) (the logistic function, with its limits 0 and 1 at
  the two infinities).  A kernel spells the layer as a matrix product of the operands rounded to bf16, accumulated
  into zero, plus the row broadcast of a [1, Q] bias block; a host program spells it as a general dot product plus
  two broadcasts of a length-Q bias.  At the ideal instance a rounding is the identity and both products are the
  exact sum, so both spellings ARE `dense`.  Likewise the kernel's x · logistic x and the host's
  x · (1 / (1 + exp (-x))) are both the activation.

  An entry (p, q) of a layer depends on row p of x only: `dense_congr` and `mlp_congr` say so, which is what lets
  a block of rows be computed from a block of rows.
-/
import Idealize.ShloMosaic.Lib.ValueIdx
import Idealize.ShloMosaic.Lib.Pipeline.Value
import Idealize.ShloMosaic.PureOps.Ideal.Laws
import proofs.«114264_j41979010351135_2_alg».proof.Proof.LibPlainDot

noncomputable section

namespace DenseLayer

open Idealize.ShloMosaic Idealize.ShloMosaic.ValueIdx

variable {P P' K Q R : Nat}

/-- x · W + b, entry by entry. -/
def dense (x : (⟨2, ![P, K]⟩ : Shape).Idx → EReal) (W : (⟨2, ![K, Q]⟩ : Shape).Idx → EReal) (b : Fin Q → EReal) :
    (⟨2, ![P, Q]⟩ : Shape).Idx → EReal :=
  fun i => (∑ k : Fin K, x (ix2 (n0 := P) (i 0) k) * W (ix2 k (n1 := Q) (i 1))) + b (i 1)

theorem dense_ix2 (x : (⟨2, ![P, K]⟩ : Shape).Idx → EReal) (W : (⟨2, ![K, Q]⟩ : Shape).Idx → EReal) (b : Fin Q → EReal)
    (p : Fin P) (q : Fin Q) : dense x W b (ix2 p q) = (∑ k : Fin K, x (ix2 p k) * W (ix2 k q)) + b q := rfl

/-- The activation y · σ(y). -/
def act (y : EReal) : EReal := y * Ideal.logistic y

/-- The activation applied to every entry. -/
def actArr {s : Shape} (y : s.Idx → EReal) : s.Idx → EReal := fun i => act (y i)

/-- Two layers with the activation between them. -/
def mlp (x : (⟨2, ![P, K]⟩ : Shape).Idx → EReal) (W : (⟨2, ![K, Q]⟩ : Shape).Idx → EReal) (b : Fin Q → EReal)
    (W' : (⟨2, ![Q, R]⟩ : Shape).Idx → EReal) (b' : Fin R → EReal) : (⟨2, ![P, R]⟩ : Shape).Idx → EReal :=
  dense (actArr (dense x W b)) W' b'

/-- Entry (p, q) of a layer reads row p of its input, column q of its weights and entry q of its bias, and nothing else. -/
theorem dense_congr {x : (⟨2, ![P, K]⟩ : Shape).Idx → EReal} {x' : (⟨2, ![P', K]⟩ : Shape).Idx → EReal}
    {W W' : (⟨2, ![K, Q]⟩ : Shape).Idx → EReal} {b b' : Fin Q → EReal} {p : Fin P} {p' : Fin P'} {q : Fin Q}
    (hx : ∀ k, x (ix2 p k) = x' (ix2 p' k)) (hW : ∀ k, W (ix2 k q) = W' (ix2 k q)) (hb : b q = b' q) :
    dense x W b (ix2 p q) = dense x' W' b' (ix2 p' q) := by
  rw [dense_ix2, dense_ix2, hb]
  exact congrArg (· + b' q) (Finset.sum_congr rfl fun k _ => by rw [hx k, hW k])

/-- The same for two layers: entry (p, r) reads row p of the input. -/
theorem mlp_congr {x : (⟨2, ![P, K]⟩ : Shape).Idx → EReal} {x' : (⟨2, ![P', K]⟩ : Shape).Idx → EReal}
    {W W₀ : (⟨2, ![K, Q]⟩ : Shape).Idx → EReal} {b b₀ : Fin Q → EReal}
    {W' W₀' : (⟨2, ![Q, R]⟩ : Shape).Idx → EReal} {b' b₀' : Fin R → EReal} {p : Fin P} {p' : Fin P'} {r : Fin R}
    (hx : ∀ k, x (ix2 p k) = x' (ix2 p' k)) (hW : ∀ k q, W (ix2 k q) = W₀ (ix2 k q)) (hb : ∀ q, b q = b₀ q)
    (hW' : ∀ q, W' (ix2 q r) = W₀' (ix2 q r)) (hb' : b' r = b₀' r) :
    mlp x W b W' b' (ix2 p r) = mlp x' W₀ b₀ W₀' b₀' (ix2 p' r) :=
  dense_congr (fun q => congrArg act (dense_congr hx (fun k => hW k q) (hb q))) hW' hb'

/-- The float word of 1.0 is the real number one. -/
theorem ofBits_one : Ideal.ofBits .f32 0x3F800000#32 = 1 := by
  simp [Ideal.ofBits, Ideal.ieee, -EReal.coe_mul]; norm_num

/-- In a row of length Q read at q: either Q = 1 and q = 0, or the coordinate is q. -/
theorem row_coord (q : Fin Q) : q.val = if Q = 1 then 0 else q.val := by
  by_cases h : Q = 1
  · rw [if_pos h]; have := q.isLt; omega
  · rw [if_neg h]

/-- THE KERNEL'S SPELLING of a layer: the product of the operands rounded to bf16, accumulated into zero, plus the row
    broadcast of a [1, Q] bias block. -/
theorem kernel_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨2, ![1, Q]⟩ .f32)
    (hr : FTy.bits .bf16 < FTy.bits .f32) (hsc : (⟨2, ![1, Q]⟩ : Shape).ShapeCasts ⟨2, ![1, Q]⟩)
    (hbc : (⟨2, ![1, Q]⟩ : Shape).Broadcasts ⟨2, ![P, Q]⟩) :
    addf (matmul d none (truncf .bf16 x hr) (truncf .bf16 W hr) (constant ⟨2, ![P, Q]⟩ .f32 0x00000000#32))
      (broadcastTo ⟨2, ![P, Q]⟩ (shapeCast ⟨2, ![1, Q]⟩ b hsc) hbc)
    = dense x W (fun q => b (ix2 (0 : Fin 1) q)) := by
  funext j
  obtain ⟨p, q, rfl⟩ : ∃ (p : Fin P) (q : Fin Q), j = ix2 p q := ⟨j 0, j 1, eq_ix2 j⟩
  rw [shapeCast_self]
  show FloatOps.matmul d none (truncf .bf16 x hr) (truncf .bf16 W hr) (constant ⟨2, ![P, Q]⟩ .f32 0x00000000#32) (ix2 p q)
      + broadcastTo ⟨2, ![P, Q]⟩ b hbc (ix2 p q) = _
  rw [PlainDot.matmul_zero_apply hd, broadcastTo_apply b hbc (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q)]
  rfl

/-- THE HOST'S SPELLING of a layer: the general dot product plus a length-Q bias broadcast to [1, Q] and then to [P, Q]. -/
theorem host_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![P, Q]⟩ ![0, 1]) :
    addf (Host.dotGeneral d none x W) (broadcastInDim ⟨2, ![P, Q]⟩ ![0, 1] h2 (broadcastInDim ⟨2, ![1, Q]⟩ ![1] h1 b))
    = dense x W (fun q => b (ix1 q)) := by
  funext j
  obtain ⟨p, q, rfl⟩ : ∃ (p : Fin P) (q : Fin Q), j = ix2 p q := ⟨j 0, j 1, eq_ix2 j⟩
  show FloatOps.dotGeneral d none .single x W (ix2 p q)
      + broadcastInDim ⟨2, ![P, Q]⟩ ![0, 1] h2 (broadcastInDim ⟨2, ![1, Q]⟩ ![1] h1 b) (ix2 p q) = _
  rw [PlainDot.dotGeneral_apply hd, broadcastInDim_apply ![0, 1] h2 _ (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q),
    broadcastInDim_apply ![1] h1 b (ix2 (0 : Fin 1) q) (ix1 q) (fun a => match a with
    | ⟨0, _⟩ => by show q.val = if Q = 1 then 0 else q.val; exact row_coord q)]
  rfl

/-- THE KERNEL'S SPELLING of the activation: y times the logistic of y. -/
theorem kernel_act {s : Shape} (y : FVec Ideal s .f32) : mulf y (logistic y) = actArr y := rfl

/-- THE HOST'S SPELLING of the activation: y times the quotient of one by one plus the exponential of minus y. -/
theorem host_act {s : Shape} (y : FVec Ideal s .f32) (h : (⟨0, ![]⟩ : Shape).BroadcastsInDim s ![]) :
    mulf y (Host.divf (broadcastInDim s ![] h (constant (F := Ideal) ⟨0, ![]⟩ .f32 0x3F800000#32))
      (addf (broadcastInDim s ![] h (constant (F := Ideal) ⟨0, ![]⟩ .f32 0x3F800000#32)) (Host.exp (Host.negf y))))
    = actArr y := by
  funext i
  have one : broadcastInDim s ![] h (constant (F := Ideal) ⟨0, ![]⟩ .f32 0x3F800000#32) i = (1 : EReal) :=
    (broadcastInDim_apply ![] h _ i ix0 (fun a => a.elim0)).trans ofBits_one
  show y i * Ideal.div (broadcastInDim s ![] h (constant (F := Ideal) ⟨0, ![]⟩ .f32 0x3F800000#32) i)
      (broadcastInDim s ![] h (constant (F := Ideal) ⟨0, ![]⟩ .f32 0x3F800000#32) i + Ideal.exp (-(y i))) = y i * Ideal.logistic (y i)
  rw [one]
  rfl

end DenseLayer

end
-- ==== Proof.LibBroadcastReads.lean ====
/-
  The host's `broadcast_in_dim` in the few arrangements a node-by-feature computation uses, read at an index.

  * a vector [n] laid out as a column [n, 1] reads, at (r, 0), the vector at r;
  * a column [n, 1] broadcast over c lanes reads, at (r, k), the column at (r, 0);
  * a vector [c] laid out as a row [1, c] reads, at (0, k), the vector at k;
  * a row [1, c] broadcast over n rows reads, at (r, k), the row at (0, k);
  * a scalar broadcast to any shape reads, everywhere, the scalar.
-/
import Idealize.ShloMosaic.Lib.ValueIdx
import Idealize.ShloMosaic.Lib.Pipeline.Value

noncomputable section

namespace BroadcastReads

open Idealize.ShloMosaic Idealize.ShloMosaic.ValueIdx

variable {α : Type} {n c : Nat}

/-- In an axis of length n read at r: either n = 1 and r = 0, or the coordinate is r. -/
theorem coord_or_unit (r : Fin n) : r.val = if n = 1 then 0 else r.val := by
  by_cases h : n = 1
  · rw [if_pos h]; have := r.isLt; omega
  · rw [if_neg h]

/-- A vector laid out as a column. -/
theorem vec_to_col (v : (⟨1, ![n]⟩ : Shape).Idx → α) (h : (⟨1, ![n]⟩ : Shape).BroadcastsInDim ⟨2, ![n, 1]⟩ ![0])
    (r : Fin n) (u : Fin 1) : broadcastInDim ⟨2, ![n, 1]⟩ ![0] h v (ix2 r u) = v (ix1 r) :=
  broadcastInDim_apply ![0] h v (ix2 r u) (ix1 r) (fun a => match a with
    | ⟨0, _⟩ => by show r.val = if n = 1 then 0 else r.val; exact coord_or_unit r)

/-- A column broadcast over the lanes. -/
theorem col_to_lanes (v : (⟨2, ![n, 1]⟩ : Shape).Idx → α) (h : (⟨2, ![n, 1]⟩ : Shape).BroadcastsInDim ⟨2, ![n, c]⟩ ![0, 1])
    (r : Fin n) (k : Fin c) : broadcastInDim ⟨2, ![n, c]⟩ ![0, 1] h v (ix2 r k) = v (ix2 r (0 : Fin 1)) :=
  broadcastInDim_apply ![0, 1] h v (ix2 r k) (ix2 r (0 : Fin 1)) (fun a => match a with
    | ⟨0, _⟩ => by show r.val = if n = 1 then 0 else r.val; exact coord_or_unit r
    | ⟨1, _⟩ => by show 0 = if (1 : Nat) = 1 then 0 else k.val; rw [if_pos rfl])

/-- A vector laid out as a row. -/
theorem vec_to_row (v : (⟨1, ![c]⟩ : Shape).Idx → α) (h : (⟨1, ![c]⟩ : Shape).BroadcastsInDim ⟨2, ![1, c]⟩ ![1])
    (u : Fin 1) (k : Fin c) : broadcastInDim ⟨2, ![1, c]⟩ ![1] h v (ix2 u k) = v (ix1 k) :=
  broadcastInDim_apply ![1] h v (ix2 u k) (ix1 k) (fun a => match a with
    | ⟨0, _⟩ => by show k.val = if c = 1 then 0 else k.val; exact coord_or_unit k)

/-- A row broadcast over the rows. -/
theorem row_to_rows (v : (⟨2, ![1, c]⟩ : Shape).Idx → α) (h : (⟨2, ![1, c]⟩ : Shape).BroadcastsInDim ⟨2, ![n, c]⟩ ![0, 1])
    (r : Fin n) (k : Fin c) : broadcastInDim ⟨2, ![n, c]⟩ ![0, 1] h v (ix2 r k) = v (ix2 (0 : Fin 1) k) :=
  broadcastInDim_apply ![0, 1] h v (ix2 r k) (ix2 (0 : Fin 1) k) (fun a => match a with
    | ⟨0, _⟩ => by show 0 = if (1 : Nat) = 1 then 0 else r.val; rw [if_pos rfl]
    | ⟨1, _⟩ => by show k.val = if c = 1 then 0 else k.val; exact coord_or_unit k)

/-- A scalar broadcast to a shape. -/
theorem scalar_to (s : Shape) (z : (⟨0, ![]⟩ : Shape).Idx → α) (h : (⟨0, ![]⟩ : Shape).BroadcastsInDim s ![]) (i : s.Idx) :
    broadcastInDim s ![] h z i = z ix0 :=
  broadcastInDim_apply ![] h z i ix0 (fun a => a.elim0)

end BroadcastReads

end
-- ==== Proof.LibRecurrent.lean ====
/-
  Three recurrent steps from a zero state and a linear head, as whole-array functions over the extended reals.

  One LSTM step whose previous hidden and cell states are zero keeps three of its four gates: from the row of
  4·128 pre-activations `g = h·W + b` (gate order input, forget, cell, output) the new cell state is `σ(g_i) · tanh(g_c)`
  and the new hidden state `σ(g_o) · tanh(σ(g_i) · tanh(g_c))`; the forget gate multiplies the zero state and vanishes.
  Three such steps and a last dense layer give `chain`. Every entry of row `p` of the result depends on row `p` of the
  input only (`chain_congr`), which is what lets a block of rows be computed from a block of rows.

  Two spellings of the same functions are read here, at the ideal instance: a kernel's (slices of a vector,
  `logistic`, `tanh`) and a host program's (slices, `1 / (1 + exp(-x))`, `tanh`; a bias added in two halves, which is the
  bias's two halves added first, by associativity).
-/
import Idealize.ShloMosaic.Lib.ValueIdx
import Idealize.ShloMosaic.Lib.ValueLayout
import Idealize.ShloMosaic.Lib.Pipeline.Value
import Idealize.ShloMosaic.PureOps.Ideal.Laws
import proofs.«114264_j41979010351135_2_alg».proof.Proof.LibDenseLayer
import proofs.«114264_j41979010351135_2_alg».proof.Proof.LibBroadcastReads

noncomputable section

namespace Recurrent

open Idealize.ShloMosaic Idealize.ShloMosaic.ValueIdx DenseLayer

variable {P P' : Nat}

/-- Column `o + q` of a row of 512 gate pre-activations: gate `o / 128`, unit `q`. -/
def gcol (o : Nat) (ho : o + 128 ≤ 512) (q : Fin 128) : Fin 512 := ⟨o + q.val, by have := q.isLt; omega⟩

/-- The hidden state after one step from a zero state, from the gate pre-activations. -/
def cell (g : (⟨2, ![P, 512]⟩ : Shape).Idx → EReal) : (⟨2, ![P, 128]⟩ : Shape).Idx → EReal := fun j =>
  Ideal.logistic (g (ix2 (n0 := P) (j 0) (gcol 384 (by norm_num) (j 1))))
    * Ideal.tanh (Ideal.logistic (g (ix2 (n0 := P) (j 0) (gcol 0 (by norm_num) (j 1))))
        * Ideal.tanh (g (ix2 (n0 := P) (j 0) (gcol 256 (by norm_num) (j 1)))))

theorem cell_ix2 (g : (⟨2, ![P, 512]⟩ : Shape).Idx → EReal) (p : Fin P) (q : Fin 128) :
    cell g (ix2 p q) = Ideal.logistic (g (ix2 p (gcol 384 (by norm_num) q)))
      * Ideal.tanh (Ideal.logistic (g (ix2 p (gcol 0 (by norm_num) q))) * Ideal.tanh (g (ix2 p (gcol 256 (by norm_num) q)))) := rfl

/-- Row `p` of the new hidden state reads row `p` of the pre-activations. -/
theorem cell_congr {g : (⟨2, ![P, 512]⟩ : Shape).Idx → EReal} {g' : (⟨2, ![P', 512]⟩ : Shape).Idx → EReal} {p : Fin P} {p' : Fin P'}
    (h : ∀ k, g (ix2 p k) = g' (ix2 p' k)) (q : Fin 128) : cell g (ix2 p q) = cell g' (ix2 p' q) := by
  rw [cell_ix2, cell_ix2, h, h, h]

/-- Three steps and the head. -/
def chain (h0 : (⟨2, ![P, 128]⟩ : Shape).Idx → EReal)
    (W0 : (⟨2, ![128, 512]⟩ : Shape).Idx → EReal) (b0 : Fin 512 → EReal)
    (W1 : (⟨2, ![128, 512]⟩ : Shape).Idx → EReal) (b1 : Fin 512 → EReal)
    (W2 : (⟨2, ![128, 512]⟩ : Shape).Idx → EReal) (b2 : Fin 512 → EReal)
    (LW : (⟨2, ![128, 16]⟩ : Shape).Idx → EReal) (lb : Fin 16 → EReal) : (⟨2, ![P, 16]⟩ : Shape).Idx → EReal :=
  dense (cell (dense (cell (dense (cell (dense h0 W0 b0)) W1 b1)) W2 b2)) LW lb

/-- Row `p` of the chain's result reads row `p` of its input. -/
theorem chain_congr {h0 : (⟨2, ![P, 128]⟩ : Shape).Idx → EReal} {h0' : (⟨2, ![P', 128]⟩ : Shape).Idx → EReal}
    (W0 : (⟨2, ![128, 512]⟩ : Shape).Idx → EReal) (b0 : Fin 512 → EReal)
    (W1 : (⟨2, ![128, 512]⟩ : Shape).Idx → EReal) (b1 : Fin 512 → EReal)
    (W2 : (⟨2, ![128, 512]⟩ : Shape).Idx → EReal) (b2 : Fin 512 → EReal)
    (LW : (⟨2, ![128, 16]⟩ : Shape).Idx → EReal) (lb : Fin 16 → EReal) {p : Fin P} {p' : Fin P'}
    (hx : ∀ k, h0 (ix2 p k) = h0' (ix2 p' k)) (r : Fin 16) :
    chain h0 W0 b0 W1 b1 W2 b2 LW lb (ix2 p r) = chain h0' W0 b0 W1 b1 W2 b2 LW lb (ix2 p' r) :=
  dense_congr (fun k3 => cell_congr (fun q3 => dense_congr (fun k2 => cell_congr (fun q2 => dense_congr (fun k1 =>
    cell_congr (fun q1 => dense_congr hx (fun _ => rfl) rfl) k1) (fun _ => rfl) rfl) k2) (fun _ => rfl) rfl) k3) (fun _ => rfl) rfl

/-! ## The kernel's spelling -/

theorem kernel_cell (g : FVec Ideal ⟨2, ![P, 512]⟩ .f32)
    (h0 : (⟨2, ![P, 512]⟩ : Shape).Slices ![0, 0] ⟨2, ![P, 128]⟩)
    (h256 : (⟨2, ![P, 512]⟩ : Shape).Slices ![0, 256] ⟨2, ![P, 128]⟩)
    (h384 : (⟨2, ![P, 512]⟩ : Shape).Slices ![0, 384] ⟨2, ![P, 128]⟩) :
    mulf (logistic (extractStridedSlice ⟨2, ![P, 128]⟩ ![0, 384] g h384))
      (tanh (mulf (logistic (extractStridedSlice ⟨2, ![P, 128]⟩ ![0, 0] g h0)) (tanh (extractStridedSlice ⟨2, ![P, 128]⟩ ![0, 256] g h256))))
    = cell g := by
  funext j
  obtain ⟨p, q, rfl⟩ : ∃ (p : Fin P) (q : Fin 128), j = ix2 p q := ⟨j 0, j 1, eq_ix2 j⟩
  show Ideal.logistic (extractStridedSlice ⟨2, ![P, 128]⟩ ![0, 384] g h384 (ix2 p q))
      * Ideal.tanh (Ideal.logistic (extractStridedSlice ⟨2, ![P, 128]⟩ ![0, 0] g h0 (ix2 p q))
        * Ideal.tanh (extractStridedSlice ⟨2, ![P, 128]⟩ ![0, 256] g h256 (ix2 p q))) = _
  rw [slice2_axis1_apply 384 g h384 p q (gcol 384 (by norm_num) q) rfl, slice2_axis1_apply 0 g h0 p q (gcol 0 (by norm_num) q) rfl,
    slice2_axis1_apply 256 g h256 p q (gcol 256 (by norm_num) q) rfl]
  rfl

/-! ## The host's spelling -/

/-- `1 / (1 + exp(-y))`, with the ones spelt as broadcasts of the float word of 1.0, is the logistic function. -/
theorem host_logistic {s : Shape} (y : FVec Ideal s .f32) (h : (⟨0, ![]⟩ : Shape).BroadcastsInDim s ![]) :
    Host.divf (broadcastInDim s ![] h (constant (F := Ideal) ⟨0, ![]⟩ .f32 0x3F800000#32))
      (addf (broadcastInDim s ![] h (constant (F := Ideal) ⟨0, ![]⟩ .f32 0x3F800000#32)) (Host.exp (Host.negf y)))
    = logistic y := by
  funext i
  have one : broadcastInDim s ![] h (constant (F := Ideal) ⟨0, ![]⟩ .f32 0x3F800000#32) i = (1 : EReal) :=
    (broadcastInDim_apply ![] h _ i ix0 (fun a => a.elim0)).trans ofBits_one
  show Ideal.div (broadcastInDim s ![] h (constant (F := Ideal) ⟨0, ![]⟩ .f32 0x3F800000#32) i)
      (broadcastInDim s ![] h (constant (F := Ideal) ⟨0, ![]⟩ .f32 0x3F800000#32) i + Ideal.exp (-(y i))) = Ideal.logistic (y i)
  rw [one]
  rfl

theorem host_cell (g : FVec Ideal ⟨2, ![P, 512]⟩ .f32)
    (h0 : (⟨2, ![P, 512]⟩ : Shape).Slices ![0, 0] ⟨2, ![P, 128]⟩)
    (h256 : (⟨2, ![P, 512]⟩ : Shape).Slices ![0, 256] ⟨2, ![P, 128]⟩)
    (h384 : (⟨2, ![P, 512]⟩ : Shape).Slices ![0, 384] ⟨2, ![P, 128]⟩) :
    mulf (logistic (extractStridedSlice ⟨2, ![P, 128]⟩ ![0, 384] g h384))
      (Host.tanh (mulf (logistic (extractStridedSlice ⟨2, ![P, 128]⟩ ![0, 0] g h0)) (Host.tanh (extractStridedSlice ⟨2, ![P, 128]⟩ ![0, 256] g h256))))
    = cell g := by
  funext j
  obtain ⟨p, q, rfl⟩ : ∃ (p : Fin P) (q : Fin 128), j = ix2 p q := ⟨j 0, j 1, eq_ix2 j⟩
  show Ideal.logistic (extractStridedSlice ⟨2, ![P, 128]⟩ ![0, 384] g h384 (ix2 p q))
      * Ideal.tanh (Ideal.logistic (extractStridedSlice ⟨2, ![P, 128]⟩ ![0, 0] g h0 (ix2 p q))
        * Ideal.tanh (extractStridedSlice ⟨2, ![P, 128]⟩ ![0, 256] g h256 (ix2 p q))) = _
  rw [slice2_axis1_apply 384 g h384 p q (gcol 384 (by norm_num) q) rfl, slice2_axis1_apply 0 g h0 p q (gcol 0 (by norm_num) q) rfl,
    slice2_axis1_apply 256 g h256 p q (gcol 256 (by norm_num) q) rfl]
  rfl

variable {K Q : Nat}

/-- A dense layer whose bias the host adds in two halves is the layer with the halves added first. -/
theorem host_dense2 {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b b' : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![P, Q]⟩ ![0, 1]) :
    addf (addf (Host.dotGeneral d none x W) (broadcastInDim ⟨2, ![P, Q]⟩ ![0, 1] h2 (broadcastInDim ⟨2, ![1, Q]⟩ ![1] h1 b)))
      (broadcastInDim ⟨2, ![P, Q]⟩ ![0, 1] h2 (broadcastInDim ⟨2, ![1, Q]⟩ ![1] h1 b'))
    = dense x W (fun q => b (ix1 q) + b' (ix1 q)) := by
  rw [host_dense hd x W b h1 h2]
  funext j
  obtain ⟨p, q, rfl⟩ : ∃ (p : Fin P) (q : Fin Q), j = ix2 p q := ⟨j 0, j 1, eq_ix2 j⟩
  rw [addf_apply, dense_ix2, dense_ix2, BroadcastReads.row_to_rows _ h2 p q, BroadcastReads.vec_to_row b' h1 0 q, add_assoc]

end Recurrent

end
-- ==== Proof.LibRowIndexing.lean ====
/-
  Gathering rows of a table and scatter-adding rows into a table, read at an index.

  A table is an array [N, C]: N rows of C entries. A list of E row numbers, kept as an integer array [E, 1], names for
  every position e one row of the table.

  * The host's gather along the rows reads, at (e, c), the table at (row e, c), where row e is the integer at position e
    read SIGNED and CLAMPED into [0, N − 1]. The same reading holds for a vector [N] gathered at such a list.
  * The host's accumulating scatter along the rows adds, into entry (i, c) of the table, every update (e, c) whose
    integer at position e, read signed and NOT clamped, is exactly i; an update whose integer is negative or at least N
    lands nowhere. At the ideal instance the result at (i, c) is the operand's entry plus the sum of those updates.
  * When the integer at position e is some i in [0, N) — which is the case whenever the scatter lands it on row i —
    the clamped reading is that same i (`clampRow_of_toInt`).
-/
import Idealize.ShloMosaic.Lib.ValueIdx
import Idealize.ShloMosaic.PureOps.Ideal
import Idealize.ShloMosaic.PureOps.Contract
import Idealize.ShloMosaic.PureOps.ShapeOps

noncomputable section

namespace RowIndexing

open Idealize.ShloMosaic Idealize.ShloMosaic.ValueIdx

variable {N E C w : Nat} {α : Type}

/-- The row an integer names for a gather: read signed, clamped into [0, N − 1]. -/
def clampRow (hN : 0 < N) (z : BitVec w) : Fin N := ⟨min z.toInt.toNat (N - 1), by omega⟩

/-- An integer that is a row number is its own clamped reading. -/
theorem clampRow_of_toInt (hN : 0 < N) (z : BitVec w) (i : Fin N) (h : z.toInt = (i.val : Int)) : clampRow hN z = i := by
  refine Fin.ext ?_
  show min z.toInt.toNat (N - 1) = i.val
  rw [h, Int.toNat_natCast]
  have := i.isLt
  omega

/-! ## The gather of rows of a table [N, C] -/

/-- The dimension numbers of a gather of whole rows: the start index names the row, the row is the slice. -/
structure IsRowGather (d : GatherDims ⟨2, ![N, C]⟩ ⟨2, ![E, 1]⟩ ⟨2, ![E, C]⟩) : Prop where
  od : d.offsetDims = [(1 : Fin 2)]
  cd : d.collapsedSliceDims = [(0 : Fin 2)]
  ob : d.operandBatchingDims = []
  sm : d.startIndexMap = [(0 : Fin 2)]
  iv : d.indexVectorDim = 1
  ss : d.sliceSizes = ![1, C]

theorem rowGather_apply (hN : 0 < N) {d : GatherDims ⟨2, ![N, C]⟩ ⟨2, ![E, 1]⟩ ⟨2, ![E, C]⟩} (h : IsRowGather d)
    (x : (⟨2, ![N, C]⟩ : Shape).Idx → α) (idx : IVec ⟨2, ![E, 1]⟩ w) (e : Fin E) (c : Fin C) :
    Host.gather d x idx (ix2 e c) = x (ix2 (clampRow hN (idx (ix2 e (0 : Fin 1)))) c) := by
  obtain ⟨od, cd, ob, sb, sm, iv, ss, wf⟩ := d
  obtain ⟨h1, h2, h3, h4, h5, h6⟩ := h
  dsimp only at h1 h2 h3 h4 h5 h6
  subst h1 h2 h3 h4 h5 h6
  unfold Host.gather
  refine congrArg x (funext fun a => Fin.ext ?_)
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[(1 : Fin 2)], [(0 : Fin 2)], [], sb, [(0 : Fin 2)], 1, ![1, C], wf⟩ :
        GatherDims ⟨2, ![N, C]⟩ ⟨2, ![E, 1]⟩ ⟨2, ![E, C]⟩) (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (fun h => Nat.one_ne_zero (congrArg Fin.val (List.mem_singleton.mp h)))]
    simp only [Nat.add_zero, Nat.zero_add]
    rfl

/-! ## The gather of entries of a vector [N] -/

/-- The dimension numbers of a gather of single entries of a vector. -/
structure IsVecGather (d : GatherDims ⟨1, ![N]⟩ ⟨2, ![E, 1]⟩ ⟨1, ![E]⟩) : Prop where
  od : d.offsetDims = []
  cd : d.collapsedSliceDims = [(0 : Fin 1)]
  ob : d.operandBatchingDims = []
  sm : d.startIndexMap = [(0 : Fin 1)]
  iv : d.indexVectorDim = 1
  ss : d.sliceSizes = ![1]

theorem vecGather_apply (hN : 0 < N) {d : GatherDims ⟨1, ![N]⟩ ⟨2, ![E, 1]⟩ ⟨1, ![E]⟩} (h : IsVecGather d)
    (x : (⟨1, ![N]⟩ : Shape).Idx → α) (idx : IVec ⟨2, ![E, 1]⟩ w) (e : Fin E) :
    Host.gather d x idx (ix1 e) = x (ix1 (clampRow hN (idx (ix2 e (0 : Fin 1))))) := by
  obtain ⟨od, cd, ob, sb, sm, iv, ss, wf⟩ := d
  obtain ⟨h1, h2, h3, h4, h5, h6⟩ := h
  dsimp only at h1 h2 h3 h4 h5 h6
  subst h1 h2 h3 h4 h5 h6
  unfold Host.gather
  refine congrArg x (funext fun a => Fin.ext ?_)
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[], [(0 : Fin 1)], [], sb, [(0 : Fin 1)], 1, ![1], wf⟩ :
        GatherDims ⟨1, ![N]⟩ ⟨2, ![E, 1]⟩ ⟨1, ![E]⟩) (ix1 e)
        ⟨List.idxOf (0 : Fin 1) [(0 : Fin 1)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## The accumulating scatter of rows into a table [N, C] -/

/-- The dimension numbers of a scatter of whole rows: the scatter index names the row, the update's row is the window. -/
structure IsRowScatter (d : ScatterDims ⟨2, ![N, C]⟩ ⟨2, ![E, 1]⟩ ⟨2, ![E, C]⟩) : Prop where
  uw : d.updateWindowDims = [(1 : Fin 2)]
  iw : d.insertedWindowDims = [(0 : Fin 2)]
  sd : d.scatterDimsToOperandDims = [(0 : Fin 2)]
  iv : d.indexVectorDim = 1

section Scatter
variable {d : ScatterDims ⟨2, ![N, C]⟩ ⟨2, ![E, 1]⟩ ⟨2, ![E, C]⟩}

theorem start_row (h : IsRowScatter d) (idx : IVec ⟨2, ![E, 1]⟩ w) (e : Fin E) (c : Fin C) :
    d.start (ix2 e c) idx 0 = (idx (ix2 e (0 : Fin 1))).toInt := by
  obtain ⟨uw, iw, sd, iv, wf⟩ := d
  obtain ⟨h1, h2, h3, h4⟩ := h
  dsimp only at h1 h2 h3 h4
  subst h1 h2 h3 h4
  unfold ScatterDims.start
  rw [dif_pos (List.mem_singleton.mpr rfl)]
  have hsi : ScatterDims.siIdx (⟨[(1 : Fin 2)], [(0 : Fin 2)], [(0 : Fin 2)], 1, wf⟩ :
      ScatterDims ⟨2, ![N, C]⟩ ⟨2, ![E, 1]⟩ ⟨2, ![E, C]⟩) (ix2 e c)
      ⟨List.idxOf (0 : Fin 2) [(0 : Fin 2)], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_col (h : IsRowScatter d) (idx : IVec ⟨2, ![E, 1]⟩ w) (e : Fin E) (c : Fin C) :
    d.start (ix2 e c) idx 1 = 0 := by
  obtain ⟨uw, iw, sd, iv, wf⟩ := d
  obtain ⟨h1, h2, h3, h4⟩ := h
  dsimp only at h1 h2 h3 h4
  subst h1 h2 h3 h4
  unfold ScatterDims.start
  rw [dif_neg (fun h => Nat.one_ne_zero (congrArg Fin.val (List.mem_singleton.mp h)))]

theorem window_row (h : IsRowScatter d) (e : Fin E) (c : Fin C) : d.window (ix2 e c) 0 = 0 := by
  obtain ⟨uw, iw, sd, iv, wf⟩ := d
  obtain ⟨h1, h2, h3, h4⟩ := h
  dsimp only at h1 h2 h3 h4
  subst h1 h2 h3 h4
  rfl

theorem window_col (h : IsRowScatter d) (e : Fin E) (c : Fin C) : d.window (ix2 e c) 1 = c.val := by
  obtain ⟨uw, iw, sd, iv, wf⟩ := d
  obtain ⟨h1, h2, h3, h4⟩ := h
  dsimp only at h1 h2 h3 h4
  subst h1 h2 h3 h4
  rfl

/-- WHERE AN UPDATE LANDS: update (e, c) lands on entry (i, c') exactly when the integer at position e is i and c = c'. -/
theorem rowScatter_resultIdx (h : IsRowScatter d) (idx : IVec ⟨2, ![E, 1]⟩ w) (e : Fin E) (c : Fin C) (i : Fin N) (c' : Fin C) :
    d.resultIdx? (ix2 e c) idx = some (ix2 i c') ↔ (idx (ix2 e (0 : Fin 1))).toInt = (i.val : Int) ∧ c = c' := by
  have h00 : d.start (ix2 e c) idx 0 + (d.window (ix2 e c) 0 : Int) = (idx (ix2 e (0 : Fin 1))).toInt := by
    rw [start_row h, window_row h]; simp
  have h11 : d.start (ix2 e c) idx 1 + (d.window (ix2 e c) 1 : Int) = (c.val : Int) := by
    rw [start_col h, window_col h]; simp
  unfold ScatterDims.resultIdx?
  split
  · rename_i hc
    rw [Option.some.injEq]
    constructor
    · intro hf
      have e0 : (d.start (ix2 e c) idx 0 + (d.window (ix2 e c) 0 : Int)).toNat = i.val := congrArg (fun f => (f 0).val) hf
      have e1 : (d.start (ix2 e c) idx 1 + (d.window (ix2 e c) 1 : Int)).toNat = c'.val := congrArg (fun f => (f 1).val) hf
      have p0 := (hc 0).1
      rw [h00] at e0 p0
      rw [h11] at e1
      refine ⟨by omega, Fin.ext (by omega)⟩
    · rintro ⟨hz, rfl⟩
      funext a
      refine Fin.ext ?_
      match a with
      | ⟨0, _⟩ =>
        show (d.start (ix2 e c) idx 0 + (d.window (ix2 e c) 0 : Int)).toNat = i.val
        rw [h00, hz]; simp
      | ⟨1, _⟩ =>
        show (d.start (ix2 e c) idx 1 + (d.window (ix2 e c) 1 : Int)).toNat = c.val
        rw [h11]; simp
  · rename_i hc
    constructor
    · intro hf; cases hf
    · rintro ⟨hz, rfl⟩
      exfalso
      refine hc fun a => ?_
      match a with
      | ⟨0, _⟩ =>
        show 0 ≤ d.start (ix2 e c) idx 0 + (d.window (ix2 e c) 0 : Int) ∧ d.start (ix2 e c) idx 0 + (d.window (ix2 e c) 0 : Int) < (N : Int)
        rw [h00, hz]
        have := i.isLt
        omega
      | ⟨1, _⟩ =>
        show 0 ≤ d.start (ix2 e c) idx 1 + (d.window (ix2 e c) 1 : Int) ∧ d.start (ix2 e c) idx 1 + (d.window (ix2 e c) 1 : Int) < (C : Int)
        rw [h11]
        have := c.isLt
        omega

/-- THE ACCUMULATING SCATTER AT (i, c), at the ideal instance: the operand's entry plus the sum, over the positions e whose
    integer is i, of the update's entry (e, c). -/
theorem rowScatterAdd_apply (h : IsRowScatter d) {φ : FTy} (x : FVec Ideal ⟨2, ![N, C]⟩ φ) (idx : IVec ⟨2, ![E, 1]⟩ w)
    (upd : FVec Ideal ⟨2, ![E, C]⟩ φ) (i : Fin N) (c : Fin C) :
    Host.scatterAdd d x idx upd (ix2 i c)
      = x (ix2 i c) + ∑ e ∈ Finset.univ.filter (fun e : Fin E => (idx (ix2 e (0 : Fin 1))).toInt = (i.val : Int)), upd (ix2 e c) := by
  show x (ix2 i c) + ∑ j ∈ Finset.univ.filter (fun j => d.resultIdx? j idx = some (ix2 i c)), upd j = _
  congr 1
  rw [Finset.sum_filter, sum_idx2, Finset.sum_filter]
  refine Finset.sum_congr rfl fun e _ => ?_
  by_cases hz : (idx (ix2 e (0 : Fin 1))).toInt = (i.val : Int)
  · rw [if_pos hz]
    rw [Finset.sum_eq_single c]
    · rw [if_pos ((rowScatter_resultIdx h idx e c i c).mpr ⟨hz, rfl⟩)]
    · intro c2 _ hne
      rw [if_neg (fun hh => hne ((rowScatter_resultIdx h idx e c2 i c).mp hh).2)]
    · intro hh; exact absurd (Finset.mem_univ c) hh
  · rw [if_neg hz]
    refine Finset.sum_eq_zero fun c2 _ => ?_
    rw [if_neg (fun hh => hz ((rowScatter_resultIdx h idx e c2 i c).mp hh).1)]

/-- A scatter-add of gathered rows: entry (i, c) is the operand's entry plus the sum, over the positions e whose scatter integer
    is i, of the table's entry (row named by the gather integer at e, c). -/
theorem scatterAdd_gather_apply (hN : 0 < N) (h : IsRowScatter d) {dg : GatherDims ⟨2, ![N, C]⟩ ⟨2, ![E, 1]⟩ ⟨2, ![E, C]⟩}
    (hg : IsRowGather dg) {φ : FTy} (x : FVec Ideal ⟨2, ![N, C]⟩ φ) (idx idg : IVec ⟨2, ![E, 1]⟩ w)
    (tbl : FVec Ideal ⟨2, ![N, C]⟩ φ) (i : Fin N) (c : Fin C) :
    Host.scatterAdd d x idx (Host.gather dg tbl idg) (ix2 i c)
      = x (ix2 i c) + ∑ e ∈ Finset.univ.filter (fun e : Fin E => (idx (ix2 e (0 : Fin 1))).toInt = (i.val : Int)),
          tbl (ix2 (clampRow hN (idg (ix2 e (0 : Fin 1)))) c) := by
  rw [rowScatterAdd_apply h]
  exact congrArg (x (ix2 i c) + ·) (Finset.sum_congr rfl fun e _ => rowGather_apply hN hg tbl idg e c)

end Scatter

end RowIndexing

end
-- ==== Proof.GnnSpec.lean ====
/-
  What both programs compute, as one function of the argument arrays, on the extended reals.

  A graph of 100000 nodes with 1600000 edges (two rows of 32-bit integers: sources, destinations), node features
  `x : [100000, 256]`. One graph-convolution layer: `x · wᵀ` (`xw`), aggregated along the edges and the self-loops with the
  symmetric normalisation `dinv[src] · dinv[dst]`, plus a bias, clamped at zero from below (`conv`: GraphConv's scaled form,
  which the edge-list form equals); then three recurrent steps from a zero state and a linear head (Recurrent's
  `chain`), each step's two bias vectors added first.

  How an edge's integers are read: a source is normalised the way array indexing normalises an index (a negative
  integer has the extent added) and then clamped into the table's rows (`rowOf`); a destination is read signed as it
  is, and an edge whose destination is not a node number arrives nowhere.
-/
import proofs.«114264_j41979010351135_2_alg».proof.Proof.LibGraphConv
import proofs.«114264_j41979010351135_2_alg».proof.Proof.LibRecurrent
import proofs.«114264_j41979010351135_2_alg».proof.Proof.LibRowIndexing
import Idealize.ShloMosaic.Lib.Pipeline.Value

noncomputable section

namespace Gnn

open Idealize.ShloMosaic Idealize.ShloMosaic.ValueIdx

/-- `x · wᵀ`: entry `(i, c)` is the sum over `k` of `x (i, k) · w (c, k)`. -/
def xw (x : (⟨2, ![100000, 256]⟩ : Shape).Idx → EReal) (w : (⟨2, ![128, 256]⟩ : Shape).Idx → EReal) :
    (⟨2, ![100000, 128]⟩ : Shape).Idx → EReal :=
  fun j => ∑ k : Fin 256, x (ix2 (n0 := 100000) (j 0) k) * w (ix2 (n0 := 128) (j 1) k)

theorem xw_ix2 (x : (⟨2, ![100000, 256]⟩ : Shape).Idx → EReal) (w : (⟨2, ![128, 256]⟩ : Shape).Idx → EReal)
    (i : Fin 100000) (c : Fin 128) : xw x w (ix2 i c) = ∑ k : Fin 256, x (ix2 i k) * w (ix2 c k) := rfl

/-- A matrix transposed. -/
def tr {Q K : Nat} (w : (⟨2, ![Q, K]⟩ : Shape).Idx → EReal) : (⟨2, ![K, Q]⟩ : Shape).Idx → EReal :=
  fun j => w (ix2 (n0 := Q) (j 1) (j 0))

theorem tr_ix2 {Q K : Nat} (w : (⟨2, ![Q, K]⟩ : Shape).Idx → EReal) (k : Fin K) (q : Fin Q) : tr w (ix2 k q) = w (ix2 q k) := rfl

/-- A transposition of a matrix by the permutation [1, 0] reads entry `(k, q)` at `(q, k)`. -/
theorem transpose_eq_tr {Q K : Nat} (w : (⟨2, ![Q, K]⟩ : Shape).Idx → EReal)
    (h : (⟨2, ![Q, K]⟩ : Shape).Transposes [1, 0] ⟨2, ![K, Q]⟩) : transpose ⟨2, ![K, Q]⟩ [1, 0] w h = tr w := by
  funext j
  obtain ⟨k, q, rfl⟩ : ∃ (k : Fin K) (q : Fin Q), j = ix2 k q := ⟨j 0, j 1, eq_ix2 j⟩
  exact transpose_apply [1, 0] w h (ix2 k q) (ix2 q k) (fun b => match b with
    | ⟨0, _⟩ => rfl
    | ⟨1, _⟩ => rfl)

/-- A vector of length `Q` reshaped to one row `[1, Q]` reads, at `(0, q)`, the vector at `q`. -/
theorem shapeCast_row_apply {α : Type} {Q : Nat} (x : (⟨1, ![Q]⟩ : Shape).Idx → α) (h : (⟨1, ![Q]⟩ : Shape).ShapeCasts ⟨2, ![1, Q]⟩)
    (q : Fin Q) : shapeCast ⟨2, ![1, Q]⟩ x h (ix2 (0 : Fin 1) q) = x (ix1 q) :=
  shapeCast_apply x h _ _ (by
    rw [Shape.rowMajor_val_two, Shape.rowMajor_val_one]
    show q.val = 0 * Q + q.val
    omega)

/-- A splat of the float word of 0.0, and of 1.0, read at an index. -/
theorem zero_entry {s : Shape} (h : (⟨0, ![]⟩ : Shape).BroadcastsInDim s ![]) (i : s.Idx) :
    broadcastInDim s ![] h (constant (F := Ideal) ⟨0, ![]⟩ .f32 0x00000000#32) i = (0 : EReal) :=
  (BroadcastReads.scalar_to s _ h i).trans Ideal.ofBits_zero_f32

theorem one_entry {s : Shape} (h : (⟨0, ![]⟩ : Shape).BroadcastsInDim s ![]) (i : s.Idx) :
    broadcastInDim s ![] h (constant (F := Ideal) ⟨0, ![]⟩ .f32 0x3F800000#32) i = (1 : EReal) :=
  (BroadcastReads.scalar_to s _ h i).trans DenseLayer.ofBits_one

/-- An index normalised: a negative integer has the extent 100000 added. -/
def nrm (z : BitVec 32) : BitVec 32 := Scalar.select (IntOp.cmpi .slt z 0#32) (IntOp.addi z 100000#32) z

/-- The table row an edge's source integer reads: normalised, then clamped into the rows. -/
def rowOf (src : IVec ⟨1, ![1600000]⟩ 32) (e : Fin 1600000) : Fin 100000 :=
  RowIndexing.clampRow (N := 100000) (by norm_num) (nrm (src (ix1 e)))

/-- The graph-convolution layer with bias, clamped at zero from below. -/
def conv (X : (⟨2, ![100000, 128]⟩ : Shape).Idx → EReal) (src dst : IVec ⟨1, ![1600000]⟩ 32)
    (b : (⟨1, ![128]⟩ : Shape).Idx → EReal) : (⟨2, ![100000, 128]⟩ : Shape).Idx → EReal :=
  fun j => GraphConv.scaled (N := 100000) (E := 1600000) (C := 128) (fun i c => X (ix2 i c)) (rowOf src) (fun e => dst (ix1 e))
    (fun c => b (ix1 c)) (j 0) (j 1)

theorem conv_ix2 (X : (⟨2, ![100000, 128]⟩ : Shape).Idx → EReal) (src dst : IVec ⟨1, ![1600000]⟩ 32)
    (b : (⟨1, ![128]⟩ : Shape).Idx → EReal) (i : Fin 100000) (c : Fin 128) :
    conv X src dst b (ix2 i c) = GraphConv.scaled (fun i c => X (ix2 i c)) (rowOf src) (fun e => dst (ix1 e)) (fun c => b (ix1 c)) i c := rfl

/-- Two bias vectors added. -/
def bsum {Q : Nat} (b b' : (⟨1, ![Q]⟩ : Shape).Idx → EReal) : Fin Q → EReal := fun q => b (ix1 q) + b' (ix1 q)

/-- THE RESULT: the convolution layer, three recurrent steps, the head. -/
def out (x : (⟨2, ![100000, 256]⟩ : Shape).Idx → EReal) (src dst : IVec ⟨1, ![1600000]⟩ 32)
    (gw : (⟨2, ![128, 256]⟩ : Shape).Idx → EReal) (gb : (⟨1, ![128]⟩ : Shape).Idx → EReal)
    (w0 : (⟨2, ![512, 128]⟩ : Shape).Idx → EReal) (bi0 bh0 : (⟨1, ![512]⟩ : Shape).Idx → EReal)
    (w1 : (⟨2, ![512, 128]⟩ : Shape).Idx → EReal) (bi1 bh1 : (⟨1, ![512]⟩ : Shape).Idx → EReal)
    (w2 : (⟨2, ![512, 128]⟩ : Shape).Idx → EReal) (bi2 bh2 : (⟨1, ![512]⟩ : Shape).Idx → EReal)
    (lw : (⟨2, ![16, 128]⟩ : Shape).Idx → EReal) (lb : (⟨1, ![16]⟩ : Shape).Idx → EReal) :
    (⟨2, ![100000, 16]⟩ : Shape).Idx → EReal :=
  Recurrent.chain (conv (xw x gw) src dst gb) (tr w0) (bsum bi0 bh0) (tr w1) (bsum bi1 bh1) (tr w2) (bsum bi2 bh2)
    (tr lw) (fun q => lb (ix1 q))

end Gnn

end
-- ==== Proof.RefChain.lean ====
/-
  The reference's three recurrent steps and linear head, read as whole-array functions.

  After its graph-convolution layer (the stage `val_main_v48`) the reference program applies, three times, a dense layer
  with the transposed input-to-hidden weights and the two bias vectors added one after the other, cuts the 512 gate
  pre-activations into the four gates, and forms `σ(o) · tanh(σ(i) · tanh(g))` with `σ` spelt `1 / (1 + exp(-·))`; then a last
  dense layer. At the ideal instance each step is Recurrent's `cell` of DenseLayer's `dense` with the two biases added
  first, and the whole is Recurrent's `chain`.
-/
import proofs.«114264_j41979010351135_2_alg».proof.Proof.RefReadPatched
import proofs.«114264_j41979010351135_2_alg».proof.Proof.GnnSpec

noncomputable section

namespace Cert.ReferenceIdeal.RefChain

open Cert.ReferenceIdeal Cert.ReferenceIdeal.ReadP Idealize.ShloMosaic Idealize.ShloMosaic.ValueIdx DenseLayer Recurrent

/-- One whole step in the host's spelling: the doubly biased dense layer, the gates cut out, the logistic function as a
    quotient. -/
theorem host_step {P : Nat} {d : DotDims ⟨2, ![P, 128]⟩ ⟨2, ![128, 512]⟩ ⟨2, ![P, 512]⟩} (hd : PlainDot.IsPlain d)
    (x : FVec Ideal ⟨2, ![P, 128]⟩ .f32) (W : FVec Ideal ⟨2, ![128, 512]⟩ .f32) (b b' : FVec Ideal ⟨1, ![512]⟩ .f32)
    (h1 : (⟨1, ![512]⟩ : Shape).BroadcastsInDim ⟨2, ![1, 512]⟩ ![1])
    (h2 : (⟨2, ![1, 512]⟩ : Shape).BroadcastsInDim ⟨2, ![P, 512]⟩ ![0, 1])
    (hs : (⟨0, ![]⟩ : Shape).BroadcastsInDim ⟨2, ![P, 128]⟩ ![])
    (h0 : (⟨2, ![P, 512]⟩ : Shape).Slices ![0, 0] ⟨2, ![P, 128]⟩)
    (h256 : (⟨2, ![P, 512]⟩ : Shape).Slices ![0, 256] ⟨2, ![P, 128]⟩)
    (h384 : (⟨2, ![P, 512]⟩ : Shape).Slices ![0, 384] ⟨2, ![P, 128]⟩) :
    mulf (Host.divf (broadcastInDim ⟨2, ![P, 128]⟩ ![] hs (constant (F := Ideal) ⟨0, ![]⟩ .f32 0x3F800000#32))
        (addf (broadcastInDim ⟨2, ![P, 128]⟩ ![] hs (constant (F := Ideal) ⟨0, ![]⟩ .f32 0x3F800000#32))
          (Host.exp (Host.negf (extractStridedSlice ⟨2, ![P, 128]⟩ ![0, 384]
            (addf (addf (Host.dotGeneral d none x W) (broadcastInDim ⟨2, ![P, 512]⟩ ![0, 1] h2 (broadcastInDim ⟨2, ![1, 512]⟩ ![1] h1 b)))
              (broadcastInDim ⟨2, ![P, 512]⟩ ![0, 1] h2 (broadcastInDim ⟨2, ![1, 512]⟩ ![1] h1 b'))) h384)))))
      (Host.tanh (mulf (Host.divf (broadcastInDim ⟨2, ![P, 128]⟩ ![] hs (constant (F := Ideal) ⟨0, ![]⟩ .f32 0x3F800000#32))
          (addf (broadcastInDim ⟨2, ![P, 128]⟩ ![] hs (constant (F := Ideal) ⟨0, ![]⟩ .f32 0x3F800000#32))
            (Host.exp (Host.negf (extractStridedSlice ⟨2, ![P, 128]⟩ ![0, 0]
              (addf (addf (Host.dotGeneral d none x W) (broadcastInDim ⟨2, ![P, 512]⟩ ![0, 1] h2 (broadcastInDim ⟨2, ![1, 512]⟩ ![1] h1 b)))
                (broadcastInDim ⟨2, ![P, 512]⟩ ![0, 1] h2 (broadcastInDim ⟨2, ![1, 512]⟩ ![1] h1 b'))) h0)))))
        (Host.tanh (extractStridedSlice ⟨2, ![P, 128]⟩ ![0, 256]
          (addf (addf (Host.dotGeneral d none x W) (broadcastInDim ⟨2, ![P, 512]⟩ ![0, 1] h2 (broadcastInDim ⟨2, ![1, 512]⟩ ![1] h1 b)))
            (broadcastInDim ⟨2, ![P, 512]⟩ ![0, 1] h2 (broadcastInDim ⟨2, ![1, 512]⟩ ![1] h1 b'))) h256))))
    = cell (dense x W (fun q => b (ix1 q) + b' (ix1 q))) := by
  rw [host_dense2 hd x W b b' h1 h2, host_logistic, host_logistic]
  exact host_cell _ h0 h256 h384

theorem plain_gates : PlainDot.IsPlain dot_S100000x128_S128x512_S100000x512_1_0_0_1_n_n := ⟨rfl, rfl, rfl, rfl, rfl, rfl⟩
theorem plain_head : PlainDot.IsPlain dot_S100000x128_S128x16_S100000x16_1_0_0_1_n_n := ⟨rfl, rfl, rfl, rfl, rfl, rfl⟩

section Steps

variable (x0 : FVec Ideal S100000x256 .f32) (x1 : IVec S2x1600000 32) (x2 : FVec Ideal S128x256 .f32) (x3 : FVec Ideal S128 .f32)
  (x4 : FVec Ideal S512x128 .f32) (x6 x7 : FVec Ideal S512 .f32) (x8 : FVec Ideal S512x128 .f32) (x10 x11 : FVec Ideal S512 .f32)
  (x12 : FVec Ideal S512x128 .f32) (x14 x15 : FVec Ideal S512 .f32) (x16 : FVec Ideal S16x128 .f32) (x17 : FVec Ideal S16 .f32)

theorem step1 : val_main_v76 (F := Ideal) x0 x1 x2 x3 x4 x6 x7
    = cell (dense (val_main_v48 (F := Ideal) x0 x1 x2 x3) (val_main_v49 (F := Ideal) x4) (Gnn.bsum x6 x7)) := by
  unfold val_main_v76 val_main_v75 val_main_v74 val_main_v73 val_main_cst_12 val_main_v72 val_main_v71 val_main_cst_11 val_main_v70 val_main_v69 val_main_v68 val_main_v67 val_main_v66 val_main_v65 val_main_cst_10 val_main_v64 val_main_v63 val_main_cst_9 val_main_v62 val_main_v61 val_main_v60 val_main_v59 val_main_v57 val_main_v56 val_main_v55 val_main_v54 val_main_v53 val_main_v52 val_main_v51 val_main_v50
  exact host_step plain_gates _ _ _ _ _ _ _ _ _ _

theorem step2 : val_main_v104 (F := Ideal) x0 x1 x2 x3 x4 x6 x7 x8 x10 x11
    = cell (dense (val_main_v76 (F := Ideal) x0 x1 x2 x3 x4 x6 x7) (val_main_v77 (F := Ideal) x8) (Gnn.bsum x10 x11)) := by
  unfold val_main_v104 val_main_v103 val_main_v102 val_main_v101 val_main_cst_16 val_main_v100 val_main_v99 val_main_cst_15 val_main_v98 val_main_v97 val_main_v96 val_main_v95 val_main_v94 val_main_v93 val_main_cst_14 val_main_v92 val_main_v91 val_main_cst_13 val_main_v90 val_main_v89 val_main_v88 val_main_v87 val_main_v85 val_main_v84 val_main_v83 val_main_v82 val_main_v81 val_main_v80 val_main_v79 val_main_v78
  exact host_step plain_gates _ _ _ _ _ _ _ _ _ _

theorem step3 : val_main_v132 (F := Ideal) x0 x1 x2 x3 x4 x6 x7 x8 x10 x11 x12 x14 x15
    = cell (dense (val_main_v104 (F := Ideal) x0 x1 x2 x3 x4 x6 x7 x8 x10 x11) (val_main_v105 (F := Ideal) x12) (Gnn.bsum x14 x15)) := by
  unfold val_main_v132 val_main_v131 val_main_v130 val_main_v129 val_main_cst_20 val_main_v128 val_main_v127 val_main_cst_19 val_main_v126 val_main_v125 val_main_v124 val_main_v123 val_main_v122 val_main_v121 val_main_cst_18 val_main_v120 val_main_v119 val_main_cst_17 val_main_v118 val_main_v117 val_main_v116 val_main_v115 val_main_v113 val_main_v112 val_main_v111 val_main_v110 val_main_v109 val_main_v108 val_main_v107 val_main_v106
  exact host_step plain_gates _ _ _ _ _ _ _ _ _ _

theorem head : val_main_v137 (F := Ideal) x0 x1 x2 x3 x4 x6 x7 x8 x10 x11 x12 x14 x15 x16 x17
    = dense (val_main_v132 (F := Ideal) x0 x1 x2 x3 x4 x6 x7 x8 x10 x11 x12 x14 x15) (val_main_v133 (F := Ideal) x16) (fun q => x17 (ix1 q)) := by
  unfold val_main_v137 val_main_v136 val_main_v135 val_main_v134
  exact host_dense plain_head _ _ _ _ _

/-- The reference's result is the chain of its convolution stage. -/
theorem chain_eq : val_main_v137 (F := Ideal) x0 x1 x2 x3 x4 x6 x7 x8 x10 x11 x12 x14 x15 x16 x17
    = chain (val_main_v48 (F := Ideal) x0 x1 x2 x3) (Gnn.tr x4) (Gnn.bsum x6 x7) (Gnn.tr x8) (Gnn.bsum x10 x11)
        (Gnn.tr x12) (Gnn.bsum x14 x15) (Gnn.tr x16) (fun q => x17 (ix1 q)) := by
  rw [head, step3, step2, step1]
  unfold val_main_v133 val_main_v105 val_main_v77 val_main_v49
  rw [Gnn.transpose_eq_tr, Gnn.transpose_eq_tr, Gnn.transpose_eq_tr, Gnn.transpose_eq_tr]
  rfl

end Steps

end Cert.ReferenceIdeal.RefChain

end
-- ==== Proof.LibVecScatter.lean ====
/-
  Scatter-adding the entries of a vector [E] into a vector [N] at a list of E positions, read at an index.

  The positions are an integer array [E, 1]. The host's accumulating scatter adds update `e` into entry `i` exactly when
  the integer at position `e`, read signed and NOT clamped, is `i`; an update whose integer is negative or at least `N`
  lands nowhere. At the ideal instance entry `i` of the result is the operand's entry plus the sum of those updates
  (`vecScatterAdd_apply`) — with updates that are all one, the operand's entry plus the number of positions naming `i`.
-/
import Idealize.ShloMosaic.Lib.ValueIdx
import Idealize.ShloMosaic.PureOps.Ideal
import Idealize.ShloMosaic.PureOps.Contract
import Idealize.ShloMosaic.PureOps.ShapeOps

noncomputable section

namespace VecScatter

open Idealize.ShloMosaic Idealize.ShloMosaic.ValueIdx

variable {N E w : Nat}

/-- A rank-1 index set is its coordinate's range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of single entries: the scatter index names the entry, the update has no window. -/
structure IsVecScatter (d : ScatterDims ⟨1, ![N]⟩ ⟨2, ![E, 1]⟩ ⟨1, ![E]⟩) : Prop where
  uw : d.updateWindowDims = []
  iw : d.insertedWindowDims = [(0 : Fin 1)]
  sd : d.scatterDimsToOperandDims = [(0 : Fin 1)]
  iv : d.indexVectorDim = 1

variable {d : ScatterDims ⟨1, ![N]⟩ ⟨2, ![E, 1]⟩ ⟨1, ![E]⟩}

theorem start_eq (h : IsVecScatter d) (idx : IVec ⟨2, ![E, 1]⟩ w) (e : Fin E) :
    d.start (ix1 e) idx 0 = (idx (ix2 e (0 : Fin 1))).toInt := by
  obtain ⟨uw, iw, sd, iv, wf⟩ := d
  obtain ⟨h1, h2, h3, h4⟩ := h
  dsimp only at h1 h2 h3 h4
  subst h1 h2 h3 h4
  unfold ScatterDims.start
  rw [dif_pos (List.mem_singleton.mpr rfl)]
  have hsi : ScatterDims.siIdx (⟨[], [(0 : Fin 1)], [(0 : Fin 1)], 1, wf⟩ :
      ScatterDims ⟨1, ![N]⟩ ⟨2, ![E, 1]⟩ ⟨1, ![E]⟩) (ix1 e)
      ⟨List.idxOf (0 : Fin 1) [(0 : Fin 1)], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem window_eq (h : IsVecScatter d) (e : Fin E) : d.window (ix1 e) 0 = 0 := by
  obtain ⟨uw, iw, sd, iv, wf⟩ := d
  obtain ⟨h1, h2, h3, h4⟩ := h
  dsimp only at h1 h2 h3 h4
  subst h1 h2 h3 h4
  rfl

/-- WHERE AN UPDATE LANDS: update `e` lands on entry `i` exactly when the integer at position `e` is `i`. -/
theorem resultIdx_iff (h : IsVecScatter d) (idx : IVec ⟨2, ![E, 1]⟩ w) (e : Fin E) (i : Fin N) :
    d.resultIdx? (ix1 e) idx = some (ix1 i) ↔ (idx (ix2 e (0 : Fin 1))).toInt = (i.val : Int) := by
  have h00 : d.start (ix1 e) idx 0 + (d.window (ix1 e) 0 : Int) = (idx (ix2 e (0 : Fin 1))).toInt := by
    rw [start_eq h, window_eq h]; simp
  unfold ScatterDims.resultIdx?
  split
  · rename_i hc
    rw [Option.some.injEq]
    constructor
    · intro hf
      have e0 : (d.start (ix1 e) idx 0 + (d.window (ix1 e) 0 : Int)).toNat = i.val := congrArg (fun f => (f 0).val) hf
      have p0 := (hc 0).1
      rw [h00] at e0 p0
      omega
    · intro hz
      funext a
      refine Fin.ext ?_
      match a with
      | ⟨0, _⟩ =>
        show (d.start (ix1 e) idx 0 + (d.window (ix1 e) 0 : Int)).toNat = i.val
        rw [h00, hz]; simp
  · rename_i hc
    constructor
    · intro hf; cases hf
    · intro hz
      exfalso
      refine hc fun a => ?_
      match a with
      | ⟨0, _⟩ =>
        show 0 ≤ d.start (ix1 e) idx 0 + (d.window (ix1 e) 0 : Int) ∧ d.start (ix1 e) idx 0 + (d.window (ix1 e) 0 : Int) < (N : Int)
        rw [h00, hz]
        have := i.isLt
        omega

/-- THE ACCUMULATING SCATTER AT `i`, at the ideal instance: the operand's entry plus the sum, over the positions whose
    integer is `i`, of the update's entry. -/
theorem vecScatterAdd_apply (h : IsVecScatter d) {φ : FTy} (x : FVec Ideal ⟨1, ![N]⟩ φ) (idx : IVec ⟨2, ![E, 1]⟩ w)
    (upd : FVec Ideal ⟨1, ![E]⟩ φ) (i : Fin N) :
    Host.scatterAdd d x idx upd (ix1 i)
      = x (ix1 i) + ∑ e ∈ Finset.univ.filter (fun e : Fin E => (idx (ix2 e (0 : Fin 1))).toInt = (i.val : Int)), upd (ix1 e) := by
  show x (ix1 i) + ∑ j ∈ Finset.univ.filter (fun j => d.resultIdx? j idx = some (ix1 i)), upd j = _
  congr 1
  rw [Finset.sum_filter, sum_idx1, Finset.sum_filter]
  exact Finset.sum_congr rfl fun e _ => if_congr (resultIdx_iff h idx e i) rfl rfl

end VecScatter

end
-- ==== Proof.RefGraph.lean ====
/-
  The reference's graph-convolution layer, read as GraphConv's edge-list form and hence as its scaled form.

  The reference appends the node numbers 0 … 99999 to both rows of the edge list (1700000 positions), counts the degree
  with one scatter of ones, guards its inverse square root by `where(deg > 0, ·, 0)`, gathers `dinv` at the normalised
  sources and destinations, multiplies the gathered rows of `x · wᵀ` by the product, and scatters them at the raw
  destinations. Read at an index, each of these is one of RowIndexing's / VecScatter's statements; the positions split
  into the 1600000 edges and the 100000 loops (a concatenation read on either side of the joint), and GraphConv's
  `conv_eq` turns the edge-list form into the scaled form that the specification `Gnn.conv` is.
-/
import proofs.«114264_j41979010351135_2_alg».proof.Proof.RefReadPatched
import proofs.«114264_j41979010351135_2_alg».proof.Proof.GnnSpec
import proofs.«114264_j41979010351135_2_alg».proof.Proof.LibVecScatter
import Idealize.ShloMosaic.Lib.IdealHost

set_option maxRecDepth 16384

noncomputable section

namespace Cert.ReferenceIdeal.RefGraph

open Cert.ReferenceIdeal Cert.ReferenceIdeal.Gen Cert.ReferenceIdeal.ReadP Idealize.ShloMosaic Idealize.ShloMosaic.ValueIdx RowIndexing GraphConv

variable (x0 : FVec Ideal S100000x256 .f32) (x1 : IVec S2x1600000 32) (x2 : FVec Ideal S128x256 .f32) (x3 : FVec Ideal S128 .f32)

/-! ## The dimension numbers -/

theorem plain_xw : PlainDot.IsPlain dot_S100000x256_S256x128_S100000x128_1_0_0_1_n_n := ⟨rfl, rfl, rfl, rfl, rfl, rfl⟩
theorem rows_gather : IsRowGather gather_S100000x128_S1700000x1_S1700000x128_1_0_n_n_0_1_1128 := ⟨rfl, rfl, rfl, rfl, rfl, rfl⟩
theorem vec_gather : IsVecGather gather_S100000_S1700000x1_S1700000_n_0_n_n_0_1_1 := ⟨rfl, rfl, rfl, rfl, rfl, rfl⟩
theorem rows_scatter : IsRowScatter scatter_S100000x128_S1700000x1_S1700000x128_1_0_0_1 := ⟨rfl, rfl, rfl, rfl⟩
theorem vec_scatter : VecScatter.IsVecScatter scatter_S100000_S1700000x1_S1700000_n_0_0_1 := ⟨rfl, rfl, rfl, rfl⟩

/-! ## `x · wᵀ` -/

theorem xw_eq : val_main_v1 (F := Ideal) x0 x2 = Gnn.xw x0 x2 := by
  funext j
  obtain ⟨i, c, rfl⟩ : ∃ (i : Fin 100000) (c : Fin 128), j = ix2 i c := ⟨j 0, j 1, eq_ix2 j⟩
  unfold val_main_v1 val_main_v0
  show FloatOps.dotGeneral dot_S100000x256_S256x128_S100000x128_1_0_0_1_n_n none .single x0
    (transpose S256x128 [1, 0] x2 transposes_S128x256_S256x128_1_0) (ix2 i c) = _
  rw [PlainDot.dotGeneral_apply plain_xw, Gnn.xw_ix2]
  refine Finset.sum_congr rfl fun k _ => ?_
  rw [transpose_apply [1, 0] x2 transposes_S128x256_S256x128_1_0 (ix2 k c) (ix2 c k) (fun b => match b with
    | ⟨0, _⟩ => rfl
    | ⟨1, _⟩ => rfl)]

/-! ## The two integer lists, edges then loops -/

/-- The 1700000 positions are the 1600000 edges followed by the 100000 loops. -/
theorem hM : 1600000 + 100000 = 1700000 := by norm_num

/-- The raw destinations of the edges, and the raw destinations and sources of all positions. -/
def dstE : Fin 1600000 → BitVec 32 := fun e => val_main_v7 (F := Ideal) x1 (ix1 e)
def dstP : Fin 1700000 → BitVec 32 := fun e' => val_main_v8 (F := Ideal) x1 (ix1 e')
def srcP : Fin 1700000 → BitVec 32 := fun e' => val_main_v5 (F := Ideal) x1 (ix1 e')

theorem dstP_edge (e : Fin 1600000) : dstP x1 (edgeAt hM e) = dstE x1 e := by
  unfold dstP dstE val_main_v8
  exact concatenate_pair_apply_left (s₁ := S1600000) (s₂ := S100000) 0 _ _ _ (ix1 (edgeAt hM e)) rfl (ix1 e) (fun b => match b with
    | ⟨0, _⟩ => rfl)

theorem srcP_edge (e : Fin 1600000) : srcP x1 (edgeAt hM e) = val_main_v4 (F := Ideal) x1 (ix1 e) := by
  unfold srcP val_main_v5
  exact concatenate_pair_apply_left (s₁ := S1600000) (s₂ := S100000) 0 _ _ _ (ix1 (edgeAt hM e)) rfl (ix1 e) (fun b => match b with
    | ⟨0, _⟩ => rfl)

theorem dstP_loop (j : Fin 100000) : dstP x1 (loopAt hM j) = BitVec.ofNat 32 j.val := by
  unfold dstP val_main_v8 val_main_v2
  refine (concatenate_pair_apply_right (s₁ := S1600000) (s₂ := S100000) 0 _ _ _ (ix1 (loopAt hM j)) rfl rfl (ix1 j)
    (fun b hb => match b, hb with
      | ⟨0, _⟩, hb => absurd rfl hb)
    (by show j.val + 1600000 = 1600000 + j.val; omega)).trans ?_
  rfl

theorem srcP_loop (j : Fin 100000) : srcP x1 (loopAt hM j) = BitVec.ofNat 32 j.val := by
  unfold srcP val_main_v5 val_main_v2
  refine (concatenate_pair_apply_right (s₁ := S1600000) (s₂ := S100000) 0 _ _ _ (ix1 (loopAt hM j)) rfl rfl (ix1 j)
    (fun b hb => match b, hb with
      | ⟨0, _⟩, hb => absurd rfl hb)
    (by show j.val + 1600000 = 1600000 + j.val; omega)).trans ?_
  rfl

theorem loop_toInt (j : Fin 100000) : (dstP x1 (loopAt hM j)).toInt = (j.val : Int) := by
  rw [dstP_loop]
  exact GraphSum.toInt_ofNat_of_lt (by have := j.isLt; omega)

/-- The table rows a position's source and destination read. -/
def rowS (e' : Fin 1700000) : Fin 100000 := clampRow (N := 100000) (by norm_num) (Gnn.nrm (srcP x1 e'))
def rowD (e' : Fin 1700000) : Fin 100000 := clampRow (N := 100000) (by norm_num) (Gnn.nrm (dstP x1 e'))

theorem nrm_of_toInt (z : BitVec 32) (i : Fin 100000) (h : z.toInt = (i.val : Int)) :
    clampRow (N := 100000) (by norm_num) (Gnn.nrm z) = i := by
  have hz : Gnn.nrm z = z := GraphSum.select_neg_of_nonneg z _ (by rw [h]; exact Int.natCast_nonneg _)
  rw [hz]
  exact clampRow_of_toInt _ z i h

theorem rowS_edge (e : Fin 1600000) : rowS x1 (edgeAt hM e) = Gnn.rowOf (val_main_v4 (F := Ideal) x1) e := by
  unfold rowS Gnn.rowOf
  rw [srcP_edge]

theorem rowS_loop (j : Fin 100000) : rowS x1 (loopAt hM j) = j := by
  unfold rowS
  rw [srcP_loop]
  exact nrm_of_toInt _ j (GraphSum.toInt_ofNat_of_lt (by have := j.isLt; omega))

theorem rowD_into (e' : Fin 1700000) (i : Fin 100000) (h : (dstP x1 e').toInt = (i.val : Int)) : rowD x1 e' = i :=
  nrm_of_toInt _ i h

/-! ## The degree and its guarded inverse square root -/

theorem deg_ref (i : Fin 100000) :
    val_main_v12 (F := Ideal) x1 (ix1 i) = 0 + ∑ _e' ∈ into (dstP x1) i, (1 : EReal) := by
  unfold val_main_v12
  rw [VecScatter.vecScatterAdd_apply vec_scatter]
  unfold val_main_v10 val_main_cst_0
  rw [Gnn.zero_entry]
  refine congrArg (fun s => (0 : EReal) + s) ?_
  refine Finset.sum_congr (Finset.filter_congr fun e _ => ?_) fun e _ => ?_
  · unfold val_main_v11
    rw [BroadcastReads.vec_to_col]
    rfl
  · unfold val_main_v9 val_main_cst
    exact Gnn.one_entry _ _

/-- A guarded inverse square root, read at an index. -/
theorem guarded_apply {s : Shape} (a b z : FVec Ideal s .f32) (j : s.Idx) :
    select (cmpf .ogt a b) (Host.rsqrt a) z j = Scalar.select (Ideal.cmp .ogt (a j) (b j)) (Ideal.rsqrt (a j)) (z j) := rfl

theorem dinv_ref (i : Fin 100000) : val_main_v16 (F := Ideal) x1 (ix1 i) = dinv (dstE x1) i := by
  unfold val_main_v16 val_main_v14 val_main_v15 val_main_v13 val_main_cst_1 val_main_call0_v1 val_main_call0_v0 val_main_cst_2
  rw [guarded_apply, deg_ref, Gnn.zero_entry]
  exact guard_eq hM (dstE x1) (dstP x1) (dstP_edge x1) (loop_toInt x1) i _

/-! ## The messages and their sum -/

theorem nrm_src (e' : Fin 1700000) : val_main_v36 (F := Ideal) x1 (ix1 e') = Gnn.nrm (srcP x1 e') := rfl
theorem nrm_src' (e' : Fin 1700000) : val_main_v21 (F := Ideal) x1 (ix1 e') = Gnn.nrm (srcP x1 e') := rfl
theorem nrm_dst (e' : Fin 1700000) : val_main_v28 (F := Ideal) x1 (ix1 e') = Gnn.nrm (dstP x1 e') := rfl

theorem msg_entry (e' : Fin 1700000) (c : Fin 128) :
    val_main_v41 (F := Ideal) x0 x1 x2 (ix2 e' c)
      = Gnn.xw x0 x2 (ix2 (rowS x1 e') c) * (dinv (dstE x1) (rowS x1 e') * dinv (dstE x1) (rowD x1 e')) := by
  unfold val_main_v41
  rw [mulf_apply]
  refine congr (congrArg HMul.hMul ?_) ?_
  · unfold val_main_v38
    rw [rowGather_apply (by norm_num) rows_gather, xw_eq]
    unfold val_main_v37
    rw [BroadcastReads.vec_to_col, nrm_src]
    rfl
  · unfold val_main_v40
    rw [BroadcastReads.col_to_lanes]
    unfold val_main_v39
    rw [BroadcastReads.vec_to_col]
    unfold val_main_v31
    rw [mulf_apply]
    unfold val_main_v23 val_main_v30
    rw [vecGather_apply (by norm_num) vec_gather, vecGather_apply (by norm_num) vec_gather, dinv_ref, dinv_ref]
    unfold val_main_v22 val_main_v29
    rw [BroadcastReads.vec_to_col, BroadcastReads.vec_to_col, nrm_src', nrm_dst]
    rfl

theorem sum_ref (i : Fin 100000) (c : Fin 128) :
    val_main_v44 (F := Ideal) x0 x1 x2 (ix2 i c)
      = 0 + ∑ e' ∈ into (dstP x1) i, Gnn.xw x0 x2 (ix2 (rowS x1 e') c) * (dinv (dstE x1) (rowS x1 e') * dinv (dstE x1) (rowD x1 e')) := by
  unfold val_main_v44
  rw [rowScatterAdd_apply rows_scatter]
  unfold val_main_v42 val_main_cst_8
  rw [Gnn.zero_entry]
  refine congrArg (fun s => (0 : EReal) + s) ?_
  refine Finset.sum_congr (Finset.filter_congr fun e _ => ?_) fun e _ => msg_entry x0 x1 x2 e c
  unfold val_main_v43
  rw [BroadcastReads.vec_to_col]
  rfl

/-- THE REFERENCE'S CONVOLUTION STAGE is the specification's. -/
theorem conv_ref : val_main_v48 (F := Ideal) x0 x1 x2 x3
    = Gnn.conv (Gnn.xw x0 x2) (val_main_v4 (F := Ideal) x1) (val_main_v7 (F := Ideal) x1) x3 := by
  funext j
  obtain ⟨i, c, rfl⟩ : ∃ (i : Fin 100000) (c : Fin 128), j = ix2 i c := ⟨j 0, j 1, eq_ix2 j⟩
  unfold val_main_v48 val_main_v47 val_main_call1_v0 val_main_call1_cst val_main_v46 val_main_v45
  rw [maximumf_apply, addf_apply, sum_ref, Gnn.zero_entry, BroadcastReads.row_to_rows, BroadcastReads.vec_to_row x3 _ 0 c, Gnn.conv_ix2]
  exact conv_eq hM (dstE x1) (dstP x1) (dstP_edge x1) (loop_toInt x1) (fun i c => Gnn.xw x0 x2 (ix2 i c))
    (Gnn.rowOf (val_main_v4 (F := Ideal) x1)) (fun c => x3 (ix1 c)) (rowS x1) (rowD x1) (rowS_edge x1) (rowS_loop x1)
    (rowD_into x1) i c

end Cert.ReferenceIdeal.RefGraph

end
-- ==== Proof.RefValue.lean ====
/-
  The reference's result is the specification.

  The generated run of the reference ends with its result buffer at one long term of the argument arrays; stage by stage that
  term is the graph-convolution layer (RefGraph: `Gnn.conv` of `x · wᵀ`) followed by the three recurrent steps and the
  head (RefChain: Recurrent's `chain`), that is `Gnn.out` of the arguments and of the two rows of the edge list.
-/
import proofs.«114264_j41979010351135_2_alg».proof.Proof.RefChain
import proofs.«114264_j41979010351135_2_alg».proof.Proof.RefGraph

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.ValueIdx

/-- The two rows of the edge list, as the reference cuts them out of its second argument. -/
abbrev srcR (x1 : IVec S2x1600000 32) : IVec S1600000 32 := val_main_v4 (F := Ideal) x1
abbrev dstR (x1 : IVec S2x1600000 32) : IVec S1600000 32 := val_main_v7 (F := Ideal) x1

theorem result_eq (m : (ℓ : Loc nD τ sig) → Buf (Elt Ideal) ℓ) (c : Dev nD) :
    Cert.ReferenceIdeal.ValueP.res_main_v137 (F := Ideal) m c
      = Gnn.out (m ((c.tc : Thread nD τ).loc main_arg0)) (srcR (m ((c.tc : Thread nD τ).loc main_arg1))) (dstR (m ((c.tc : Thread nD τ).loc main_arg1))) (m ((c.tc : Thread nD τ).loc main_arg2)) (m ((c.tc : Thread nD τ).loc main_arg3))
          (m ((c.tc : Thread nD τ).loc main_arg4)) (m ((c.tc : Thread nD τ).loc main_arg6)) (m ((c.tc : Thread nD τ).loc main_arg7))
          (m ((c.tc : Thread nD τ).loc main_arg8)) (m ((c.tc : Thread nD τ).loc main_arg10)) (m ((c.tc : Thread nD τ).loc main_arg11))
          (m ((c.tc : Thread nD τ).loc main_arg12)) (m ((c.tc : Thread nD τ).loc main_arg14)) (m ((c.tc : Thread nD τ).loc main_arg15))
          (m ((c.tc : Thread nD τ).loc main_arg16)) (m ((c.tc : Thread nD τ).loc main_arg17)) := by
  rw [val_main_v137_eq, RefChain.chain_eq, RefGraph.conv_ref]
  rfl

end Cert.ReferenceIdeal.RefValue

end
-- ==== Proof.KernelRun.lean ====
/-
  The idealized kernel's run with its result named.

  The program is two kernel launches among host operations. Its buffers after the last launch are the fold `W4` of the
  generated frame module: the launch memory, through the first stretch of host operations, the first launch's two output
  arrays at what its grid points wrote back, the second stretch of host operations, and the second launch's output array
  at what its grid points wrote back. The generated frame states of a final state only that the arguments are unchanged;
  the same run, read against the same last thread state, also has the result buffer at `W4`'s contents — which is what a
  value proof needs. Every weakly fair execution terminates there without a fault.
-/
import proofs.«114264_j41979010351135_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v37 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c)⟩)

end Cert.KernelIdeal.Named

end
-- ==== Proof.LibKeepDims.lean ====
/-
  Reading a row reduction that keeps its reduced axis at an index, at the ideal instance.

  A kernel that sums along the lanes and keeps the reduced axis as a unit axis computes a lane sum `[a, b] → [a]`, casts it to a column
  `[a] → [a, 1]`, and later broadcasts such a column back over the lanes `[a, 1] → [a, b]`; a sum over the rows of a column,
  `[a, 1] → [1]`, is cast to `[1, 1]`. Each lemma reads one of these at an index written with literal coordinates.
-/
import Idealize.ShloMosaic.Lib.ValueIdx
import Idealize.ShloMosaic.Lib.ValueLayout
import Idealize.ShloMosaic.Lib.Pipeline.Value
import Idealize.ShloMosaic.PureOps.Ideal.Laws

noncomputable section

namespace KeepDims

open Idealize.ShloMosaic Idealize.ShloMosaic.ValueIdx

variable {α : Type} {a b : ℕ}

/-- A vector `[a]` cast to a column `[a, 1]` reads, at `(r, u)`, the vector at `r`. -/
theorem shapeCast_a_a1_apply (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, k)`, the column at `r`. -/
theorem broadcastTo_a1_ab_apply (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- The lane sum of an `[a, b]` array, at row `r`: the sum over the lanes. -/
theorem laneSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- The sum over the rows of a column `[a, 1]`, at its one index. -/
theorem colSum_apply (src : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ r : Fin a, src (ix2 r (0 : Fin 1)) := by
  refine (Ideal.multiReduction_add_single src 0x00000000#32 h hφ hacc (ix1 u)).trans ?_
  refine Finset.sum_congr rfl fun k _ => congrArg src (funext fun ax => Fin.ext ?_)
  match ax with
  | ⟨0, _⟩ => rfl
  | ⟨1, _⟩ =>
    show u.val = 0
    omega

end KeepDims

end
-- ==== Proof.KernelBlocks0.lean ====
/-
  The first kernel launch, read as whole arrays.

  The launch runs 25 grid points; point `t` is handed rows `4000·t … 4000·t + 3999` of `x` and of the column `d`, and the whole
  `[256, 128]` matrix `w`, and writes back rows `4000·t …` of two arrays: `P = (x · w) ⊙ d` (every entry of row `i` of the
  product times `d i`) and `S = P ⊙ d`. A row of either result depends on that row of `x` and of `d` only, the 25 row blocks
  tile the 100000 rows, and so after the launch the two arrays hold `P` and `S` of the arrays the launch found.
-/
import proofs.«114264_j41979010351135_2_alg».proof.Proof.Gen.KernelIdeal.Frame
import proofs.«114264_j41979010351135_2_alg».proof.Proof.LibPlainDot
import proofs.«114264_j41979010351135_2_alg».proof.Proof.LibKeepDims
import Idealize.ShloMosaic.Lib.Pipeline.Value
import Idealize.ShloMosaic.Lib.ValueIdx

set_option maxRecDepth 16384

noncomputable section

namespace Cert.KernelIdeal.Blocks0

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem plain0 : PlainDot.IsPlain dot_S4000x256_S256x128_S4000x128_1_0_0_1_n_n := ⟨rfl, rfl, rfl, rfl, rfl, rfl⟩

/-! ## The body's arithmetic at an entry of a block -/

theorem pre_block (x0 : Vec Ideal S4000x256 .f32) (x1 : Vec Ideal S256x128 .f32) (x2 : Vec Ideal S4000x1 .f32)
    (p : Fin 4000) (q : Fin 128) :
    k0_pay2 (F := Ideal) x0 x1 x2 (ix2 p q) = (∑ k : Fin 256, x0 (ix2 p k) * x1 (ix2 k q)) * x2 (ix2 p (0 : Fin 1)) := by
  unfold k0_pay2 k0_pay1
  rw [shapeCast_self, shapeCast_self]
  show FloatOps.matmul (F := Ideal) dot_S4000x256_S256x128_S4000x128_1_0_0_1_n_n none (truncf (F := Ideal) .bf16 x0 bitsLt_bf16_f32)
      (truncf (F := Ideal) .bf16 x1 bitsLt_bf16_f32) (constant (F := Ideal) S4000x128 .f32 0x00000000#32) (ix2 p q)
    * broadcastTo S4000x128 x2 broadcasts_S4000x1_S4000x128 (ix2 p q) = _
  rw [PlainDot.matmul_zero_apply plain0, KeepDims.broadcastTo_a1_ab_apply]
  rfl

theorem self_block (x0 : Vec Ideal S4000x256 .f32) (x1 : Vec Ideal S256x128 .f32) (x2 : Vec Ideal S4000x1 .f32)
    (p : Fin 4000) (q : Fin 128) :
    k0_pay3 (F := Ideal) x0 x1 x2 (ix2 p q)
      = (∑ k : Fin 256, x0 (ix2 p k) * x1 (ix2 k q)) * x2 (ix2 p (0 : Fin 1)) * x2 (ix2 p (0 : Fin 1)) := by
  unfold k0_pay3 k0_pay1
  rw [shapeCast_self]
  show k0_pay2 (F := Ideal) x0 x1 x2 (ix2 p q) * broadcastTo S4000x128 x2 broadcasts_S4000x1_S4000x128 (ix2 p q) = _
  rw [pre_block, KeepDims.broadcastTo_a1_ab_apply]

/-! ## The whole arrays -/

/-- `(x · w) ⊙ d`: entry `(i, c)` of the product times `d i`. -/
def preOf (x : S100000x256.Idx → EReal) (w : S256x128.Idx → EReal) (d : S100000x1.Idx → EReal) : S100000x128.Idx → EReal := fun j =>
  (∑ k : Fin 256, x (ix2 (n0 := 100000) (j 0) k) * w (ix2 (n1 := 128) k (j 1))) * d (ix2 (n0 := 100000) (j 0) (0 : Fin 1))

theorem preOf_ix2 (x : S100000x256.Idx → EReal) (w : S256x128.Idx → EReal) (d : S100000x1.Idx → EReal) (i : Fin 100000) (q : Fin 128) :
    preOf x w d (ix2 i q) = (∑ k : Fin 256, x (ix2 i k) * w (ix2 k q)) * d (ix2 i (0 : Fin 1)) := rfl

/-- `(x · w) ⊙ d ⊙ d`. -/
def selfOf (x : S100000x256.Idx → EReal) (w : S256x128.Idx → EReal) (d : S100000x1.Idx → EReal) : S100000x128.Idx → EReal := fun j =>
  preOf x w d j * d (ix2 (n0 := 100000) (j 0) (0 : Fin 1))

theorem selfOf_ix2 (x : S100000x256.Idx → EReal) (w : S256x128.Idx → EReal) (d : S100000x1.Idx → EReal) (i : Fin 100000) (q : Fin 128) :
    selfOf x w d (ix2 i q) = (∑ k : Fin 256, x (ix2 i k) * w (ix2 k q)) * d (ix2 i (0 : Fin 1)) * d (ix2 i (0 : Fin 1)) := rfl

/-- The two of the arrays the launch finds. -/
def pre (c : Dev nD) : S100000x128.Idx → EReal := preOf (V c main_arg0) (V c main_v12) (V c main_v11)
def selfTerm (c : Dev nD) : S100000x128.Idx → EReal := selfOf (V c main_arg0) (V c main_v12) (V c main_v11)

/-! ## Blocks: where a block's entry sits in its array -/

/-- The printed index maps over the 25 points: row-blocked windows move with the point, the weight stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of block `t` is row `4000·t + p` of the array. -/
def rowAt (t : Fin cfg0.N) (p : Fin 4000) : Fin 100000 :=
  ⟨4000 * t.val + p.val, by have hN : cfg0.N = 25 := N_0; have := t.isLt; have := p.isLt; omega⟩

theorem blk_x (c : Dev nD) (t : Fin cfg0.N) (p : Fin 4000) (k : Fin 256) :
    iblk0 V c 0 t (ix2 p k) = (V c main_arg0 : S100000x256.Idx → EReal) (ix2 (rowAt t p) k) := by
  obtain ⟨e0, e1, -⟩ := idx0 t
  show (V c main_arg0 : S100000x256.Idx → EReal) (((cfg0.win 0).blk t).view.emb (ix2 p k)) = _
  refine congrArg _ (funext fun a => Fin.ext ?_)
  match a with
  | ⟨0, _⟩ => show win0_0.index t (0 : Fin 2) * 4000 + 1 * p.val = 4000 * t.val + p.val; rw [e0]; omega
  | ⟨1, _⟩ => show win0_0.index t (1 : Fin 2) * 256 + 1 * k.val = k.val; rw [e1]; omega

theorem blk_w (c : Dev nD) (t : Fin cfg0.N) (k : Fin 256) (q : Fin 128) :
    iblk0 V c 1 t (ix2 k q) = (V c main_v12 : S256x128.Idx → EReal) (ix2 k q) := by
  obtain ⟨-, -, e0, e1, -⟩ := idx0 t
  show (V c main_v12 : S256x128.Idx → EReal) (((cfg0.win 1).blk t).view.emb (ix2 k q)) = _
  refine congrArg _ (funext fun a => Fin.ext ?_)
  match a with
  | ⟨0, _⟩ => show win0_1.index t (0 : Fin 2) * 256 + 1 * k.val = k.val; rw [e0]; omega
  | ⟨1, _⟩ => show win0_1.index t (1 : Fin 2) * 128 + 1 * q.val = q.val; rw [e1]; omega

theorem blk_d (c : Dev nD) (t : Fin cfg0.N) (p : Fin 4000) :
    iblk0 V c 2 t (ix2 p (0 : Fin 1)) = (V c main_v11 : S100000x1.Idx → EReal) (ix2 (rowAt t p) (0 : Fin 1)) := by
  obtain ⟨-, -, -, -, e0, e1, -⟩ := idx0 t
  show (V c main_v11 : S100000x1.Idx → EReal) (((cfg0.win 2).blk t).view.emb (ix2 p (0 : Fin 1))) = _
  refine congrArg _ (funext fun a => Fin.ext ?_)
  match a with
  | ⟨0, _⟩ => show win0_2.index t (0 : Fin 2) * 4000 + 1 * p.val = 4000 * t.val + p.val; rw [e0]; omega
  | ⟨1, _⟩ => show win0_2.index t (1 : Fin 2) * 1 + 1 * 0 = 0; rw [e1]

theorem emb3 (t : Fin cfg0.N) (p : Fin 4000) (q : Fin 128) :
    ((cfg0.win 3).blk t).view.emb (ix2 p q) = ix2 (rowAt t p) q := by
  obtain ⟨-, -, -, -, -, -, e0, e1, -⟩ := idx0 t
  refine funext fun a => Fin.ext ?_
  match a with
  | ⟨0, _⟩ => show win0_3.index t (0 : Fin 2) * 4000 + 1 * p.val = 4000 * t.val + p.val; rw [e0]; omega
  | ⟨1, _⟩ => show win0_3.index t (1 : Fin 2) * 128 + 1 * q.val = q.val; rw [e1]; omega

theorem emb4 (t : Fin cfg0.N) (p : Fin 4000) (q : Fin 128) :
    ((cfg0.win 4).blk t).view.emb (ix2 p q) = ix2 (rowAt t p) q := by
  obtain ⟨-, -, -, -, -, -, -, -, e0, e1⟩ := idx0 t
  refine funext fun a => Fin.ext ?_
  match a with
  | ⟨0, _⟩ => show win0_4.index t (0 : Fin 2) * 4000 + 1 * p.val = 4000 * t.val + p.val; rw [e0]; omega
  | ⟨1, _⟩ => show win0_4.index t (1 : Fin 2) * 128 + 1 * q.val = q.val; rw [e1]; omega

/-! ## What a point writes back is its block of the whole array -/

theorem flushed3 (c : Dev nD) (t : Fin cfg0.N) :
    (dat0 V c).flushed 3 t = ((cfg0.win 3).blk t).view.read (Elt Ideal) (pre V c) := by
  show (cfg0.win 3).cut (grid0.coords t) ((dat0 V c).after 3 t) = _
  rw [after0_3]
  unfold out0_3
  rw [View.canon_unit_zero hz]
  simp only [View.ld_unit_zero (S := S4000x256) hz, View.ld_unit_zero (S := S256x128) hz, View.ld_unit_zero (S := S4000x1) hz]
  funext y
  obtain ⟨p, q, rfl⟩ : ∃ (p : Fin 4000) (q : Fin 128), y = ix2 p q := ⟨y 0, y 1, eq_ix2 y⟩
  show k0_pay2 (F := Ideal) (iblk0 V c 0 t) (iblk0 V c 1 t) (iblk0 V c 2 t) (ix2 p q) = pre V c (((cfg0.win 3).blk t).view.emb (ix2 p q))
  rw [emb3 t p q]
  refine (pre_block _ _ _ p q).trans ?_
  simp only [blk_x V c t p, blk_w V c t, blk_d V c t p]
  rfl

theorem flushed4 (c : Dev nD) (t : Fin cfg0.N) :
    (dat0 V c).flushed 4 t = ((cfg0.win 4).blk t).view.read (Elt Ideal) (selfTerm V c) := by
  show (cfg0.win 4).cut (grid0.coords t) ((dat0 V c).after 4 t) = _
  rw [after0_4]
  unfold out0_4
  rw [View.canon_unit_zero hz]
  simp only [View.ld_unit_zero (S := S4000x256) hz, View.ld_unit_zero (S := S256x128) hz, View.ld_unit_zero (S := S4000x1) hz]
  funext y
  obtain ⟨p, q, rfl⟩ : ∃ (p : Fin 4000) (q : Fin 128), y = ix2 p q := ⟨y 0, y 1, eq_ix2 y⟩
  show k0_pay3 (F := Ideal) (iblk0 V c 0 t) (iblk0 V c 1 t) (iblk0 V c 2 t) (ix2 p q) = selfTerm V c (((cfg0.win 4).blk t).view.emb (ix2 p q))
  rw [emb4 t p q]
  refine (self_block _ _ _ p q).trans ?_
  simp only [blk_x V c t p, blk_w V c t, blk_d V c t p]
  rfl

/-! ## The 25 row blocks tile the rows -/

theorem cover3 (i : S100000x128.Idx) : ∃ t : Fin cfg0.N, (cfg0.win 3).flush t = true ∧ i ∈ ((cfg0.win 3).blk t).view.set := by
  have hN : cfg0.N = 25 := N_0
  have hi0 : (i 0).val < 100000 := idx2_lt0 i
  have hi1 : (i 1).val < 128 := idx2_lt1 i
  let t : Fin cfg0.N := ⟨(i 0).val / 4000, by omega⟩
  have ht : t.val = (i 0).val / 4000 := rfl
  obtain ⟨-, -, -, -, -, -, e0, e1, -⟩ := idx0 t
  refine ⟨t, flush0_3 t, ?_⟩
  show i ∈ ((View.whole main_v13_0).slice (win0_3.rect t)).set
  rw [View.set_slice_whole, Rect.mem_set_unit]
  intro a
  match a with
  | ⟨0, _⟩ => show win0_3.index t (0 : Fin 2) * 4000 ≤ (i 0).val ∧ (i 0).val < win0_3.index t (0 : Fin 2) * 4000 + 4000; rw [e0]; omega
  | ⟨1, _⟩ => show win0_3.index t (1 : Fin 2) * 128 ≤ (i 1).val ∧ (i 1).val < win0_3.index t (1 : Fin 2) * 128 + 128; rw [e1]; omega

theorem cover4 (i : S100000x128.Idx) : ∃ t : Fin cfg0.N, (cfg0.win 4).flush t = true ∧ i ∈ ((cfg0.win 4).blk t).view.set := by
  have hN : cfg0.N = 25 := N_0
  have hi0 : (i 0).val < 100000 := idx2_lt0 i
  have hi1 : (i 1).val < 128 := idx2_lt1 i
  let t : Fin cfg0.N := ⟨(i 0).val / 4000, by omega⟩
  have ht : t.val = (i 0).val / 4000 := rfl
  obtain ⟨-, -, -, -, -, -, -, -, e0, e1⟩ := idx0 t
  refine ⟨t, flush0_4 t, ?_⟩
  show i ∈ ((View.whole main_v13_1).slice (win0_4.rect t)).set
  rw [View.set_slice_whole, Rect.mem_set_unit]
  intro a
  match a with
  | ⟨0, _⟩ => show win0_4.index t (0 : Fin 2) * 4000 ≤ (i 0).val ∧ (i 0).val < win0_4.index t (0 : Fin 2) * 4000 + 4000; rw [e0]; omega
  | ⟨1, _⟩ => show win0_4.index t (1 : Fin 2) * 128 ≤ (i 1).val ∧ (i 1).val < win0_4.index t (1 : Fin 2) * 128 + 128; rw [e1]; omega

/-- AFTER THE LAUNCH the two output arrays hold `pre` and `selfTerm` of the arrays the launch found. -/
theorem final3 (c : Dev nD) : (dat0 V c).arrAt 3 cfg0.N = pre V c :=
  (dat0 V c).arrAt_eq_of_cover 3 (pre V c) (fun t _ => flushed3 V c t) (cover3)

theorem final4 (c : Dev nD) : (dat0 V c).arrAt 4 cfg0.N = selfTerm V c :=
  (dat0 V c).arrAt_eq_of_cover 4 (selfTerm V c) (fun t _ => flushed4 V c t) (cover4)

end Cert.KernelIdeal.Blocks0

end
-- ==== Proof.KernelBlocks1.lean ====
/-
  The second kernel launch, read as a whole array.

  The launch runs 50 grid points; point `t` is handed rows `2000·t … 2000·t + 1999` of the aggregated messages `A`, of the
  column `d` and of the self-loop term `S`, and the whole of every weight and bias array, and writes back rows `2000·t …` of
  the result: the rows of `max(d ⊙ A + S + b, 0)` sent through three recurrent steps and the head (Recurrent's `chain`).
  Every row of the result depends on that row of `A`, `d`, `S` only (`chain_congr`), the 50 row blocks tile the 100000 rows,
  and so after the launch the result array is the chain of the whole arrays the launch found.
-/
import proofs.«114264_j41979010351135_2_alg».proof.Proof.Gen.KernelIdeal.Frame
import proofs.«114264_j41979010351135_2_alg».proof.Proof.LibKeepDims
import proofs.«114264_j41979010351135_2_alg».proof.Proof.LibRecurrent
import Idealize.ShloMosaic.Lib.Pipeline.Value
import Idealize.ShloMosaic.Lib.ValueIdx

set_option maxRecDepth 16384

noncomputable section

namespace Cert.KernelIdeal.Blocks1

open Cert.KernelIdeal Cert.KernelIdeal.Gen Idealize.ShloMosaic Idealize.ShloMosaic.TcCoe Idealize.SL.Sem Idealize.ShloMosaic.ValueIdx
open Idealize.ShloMosaic.Pipeline (Dat Cfg Window)
open DenseLayer Recurrent

variable (V : (c : Dev nD) → (b : Ref sig .tc) → Buf (Elt Ideal) ((c : Thread nD τ).loc b))

theorem hz : (![0, 0] : Fin 2 → Nat) = fun _ => 0 := funext fun a => by fin_cases a <;> rfl

theorem plain_gates : PlainDot.IsPlain dot_S2000x128_S128x512_S2000x512_1_0_0_1_n_n := ⟨rfl, rfl, rfl, rfl, rfl, rfl⟩
theorem plain_head : PlainDot.IsPlain dot_S2000x128_S128x16_S2000x16_1_0_0_1_n_n := ⟨rfl, rfl, rfl, rfl, rfl, rfl⟩

/-! ## The body's arithmetic, as a function of its loaded blocks -/

variable {P : Nat}

/-- `max(d ⊙ A + S + b, 0)`: row `i` of `A` times `d i`, plus row `i` of `S`, plus the bias row, clamped at zero. -/
def reluIn (d : (⟨2, ![P, 1]⟩ : Shape).Idx → EReal) (a s : (⟨2, ![P, 128]⟩ : Shape).Idx → EReal)
    (b : (⟨2, ![1, 128]⟩ : Shape).Idx → EReal) : (⟨2, ![P, 128]⟩ : Shape).Idx → EReal :=
  fun j => max (d (ix2 (n0 := P) (j 0) (0 : Fin 1)) * a j + s j + b (ix2 (0 : Fin 1) (n1 := 128) (j 1))) 0

theorem reluIn_ix2 (d : (⟨2, ![P, 1]⟩ : Shape).Idx → EReal) (a s : (⟨2, ![P, 128]⟩ : Shape).Idx → EReal)
    (b : (⟨2, ![1, 128]⟩ : Shape).Idx → EReal) (p : Fin P) (k : Fin 128) :
    reluIn d a s b (ix2 p k) = max (d (ix2 p (0 : Fin 1)) * a (ix2 p k) + s (ix2 p k) + b (ix2 (0 : Fin 1) k)) 0 := rfl

/-- A bias block `[1, Q]` as a function of the column. -/
def rowOfBlock {Q : Nat} (b : (⟨2, ![1, Q]⟩ : Shape).Idx → EReal) : Fin Q → EReal := fun q => b (ix2 (0 : Fin 1) q)

theorem relu_block (x1 : Vec Ideal S2000x1 .f32) (x0 x2 : Vec Ideal S2000x128 .f32) (x3 : Vec Ideal S1x128 .f32) :
    maximumf (addf (addf (mulf (broadcastTo S2000x128 x1 broadcasts_S2000x1_S2000x128) x0) x2)
        (broadcastTo S2000x128 x3 broadcasts_S1x128_S2000x128))
      (broadcast S2000x128 (Scalar.ofBits (F := Ideal) .f32 0x00000000#32))
    = reluIn x1 x0 x2 x3 := by
  funext j
  obtain ⟨p, k, rfl⟩ : ∃ (p : Fin 2000) (k : Fin 128), j = ix2 p k := ⟨j 0, j 1, eq_ix2 j⟩
  show max (broadcastTo S2000x128 x1 broadcasts_S2000x1_S2000x128 (ix2 p k) * x0 (ix2 p k) + x2 (ix2 p k)
      + broadcastTo S2000x128 x3 broadcasts_S1x128_S2000x128 (ix2 p k)) (Ideal.ofBits .f32 0x00000000#32) = _
  rw [KeepDims.broadcastTo_a1_ab_apply, broadcastTo_apply x3 broadcasts_S1x128_S2000x128 (ix2 p k) (ix2 (0 : Fin 1) k) (fun a => match a with
    | ⟨0, _⟩ => by show 0 = if (1 : Nat) = 1 then 0 else p.val; rw [if_pos rfl]
    | ⟨1, _⟩ => by show k.val = if (128 : Nat) = 1 then 0 else k.val; exact DenseLayer.row_coord k), Ideal.ofBits_zero_f32]
  rfl

/-- THE BODY: what a grid point stores is the chain of its loaded blocks. -/
theorem body_eq (x1 : Vec Ideal S2000x1 .f32) (x0 x2 : Vec Ideal S2000x128 .f32) (x3 : Vec Ideal S1x128 .f32)
    (x4 : Vec Ideal S128x512 .f32) (x5 : Vec Ideal S1x512 .f32) (x6 : Vec Ideal S128x512 .f32) (x7 : Vec Ideal S1x512 .f32)
    (x8 : Vec Ideal S128x512 .f32) (x9 : Vec Ideal S1x512 .f32) (x10 : Vec Ideal S128x16 .f32) (x11 : Vec Ideal S1x16 .f32) :
    k1_pay1 (F := Ideal) (k1_pay2 (F := Ideal) x1 x0 x2 x3 x4 x5 x6) x7 x8 x9 x10 x11
      = chain (reluIn x1 x0 x2 x3) x4 (rowOfBlock x5) x6 (rowOfBlock x7) x8 (rowOfBlock x9) x10 (rowOfBlock x11) := by
  unfold k1_pay1 k1_pay2
  dsimp only
  rw [kernel_dense plain_head _ _ x11, kernel_cell, kernel_dense plain_gates _ _ x9, kernel_cell,
    kernel_dense plain_gates _ _ x7, kernel_cell, kernel_dense plain_gates _ _ x5]
  simp only [shapeCast_self]
  rw [relu_block]
  rfl

/-! ## Blocks: where a block's entry sits in its array -/

/-- The printed index maps over the 50 points: row-blocked windows move with the point, the weights and biases stay. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_12.index t (0 : Fin 2) = t.val
    ∧ win1_12.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = 0
    ∧ win1_11.index t (1 : Fin 2) = 0 :=
  (by decide +kernel : ∀ t : Fin grid1.N, _)

/-- Row `p` of block `t` is row `2000·t + p` of the array. -/
def rowAt (t : Fin cfg1.N) (p : Fin 2000) : Fin 100000 :=
  ⟨2000 * t.val + p.val, by have hN : cfg1.N = 50 := N_1; have := t.isLt; have := p.isLt; omega⟩

theorem blk0 (c : Dev nD) (t : Fin cfg1.N) (p : Fin 2000) (k : Fin 128) :
    iblk1 V c 0 t (ix2 p k) = (V c main_v24 : S100000x128.Idx → EReal) (ix2 (rowAt t p) k) := by
  obtain ⟨e0, e1, -⟩ := idx1 t
  show (V c main_v24 : S100000x128.Idx → EReal) (((cfg1.win 0).blk t).view.emb (ix2 p k)) = _
  refine congrArg _ (funext fun a => Fin.ext ?_)
  match a with
  | ⟨0, _⟩ => show win1_0.index t (0 : Fin 2) * 2000 + 1 * p.val = 2000 * t.val + p.val; rw [e0]; omega
  | ⟨1, _⟩ => show win1_0.index t (1 : Fin 2) * 128 + 1 * k.val = k.val; rw [e1]; omega

theorem blk2 (c : Dev nD) (t : Fin cfg1.N) (p : Fin 2000) (k : Fin 128) :
    iblk1 V c 2 t (ix2 p k) = (V c main_v13_1 : S100000x128.Idx → EReal) (ix2 (rowAt t p) k) := by
  obtain ⟨-, -, -, -, e0, e1, -⟩ := idx1 t
  show (V c main_v13_1 : S100000x128.Idx → EReal) (((cfg1.win 2).blk t).view.emb (ix2 p k)) = _
  refine congrArg _ (funext fun a => Fin.ext ?_)
  match a with
  | ⟨0, _⟩ => show win1_2.index t (0 : Fin 2) * 2000 + 1 * p.val = 2000 * t.val + p.val; rw [e0]; omega
  | ⟨1, _⟩ => show win1_2.index t (1 : Fin 2) * 128 + 1 * k.val = k.val; rw [e1]; omega

theorem blk1 (c : Dev nD) (t : Fin cfg1.N) (p : Fin 2000) :
    iblk1 V c 1 t (ix2 p (0 : Fin 1)) = (V c main_v11 : S100000x1.Idx → EReal) (ix2 (rowAt t p) (0 : Fin 1)) := by
  obtain ⟨-, -, e0, e1, -⟩ := idx1 t
  show (V c main_v11 : S100000x1.Idx → EReal) (((cfg1.win 1).blk t).view.emb (ix2 p (0 : Fin 1))) = _
  refine congrArg _ (funext fun a => Fin.ext ?_)
  match a with
  | ⟨0, _⟩ => show win1_1.index t (0 : Fin 2) * 2000 + 1 * p.val = 2000 * t.val + p.val; rw [e0]; omega
  | ⟨1, _⟩ => show win1_1.index t (1 : Fin 2) * 1 + 1 * 0 = 0; rw [e1]

theorem blk3 (c : Dev nD) (t : Fin cfg1.N) : iblk1 V c 3 t = (V c main_v25 : S1x128.Idx → EReal) := by
  obtain ⟨-, -, -, -, -, -, -, -, e0, e1, -⟩ := idx1 t
  funext y
  show (V c main_v25 : S1x128.Idx → EReal) (((cfg1.win 3).blk t).view.emb y) = (V c main_v25 : S1x128.Idx → EReal) y
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

theorem blk4 (c : Dev nD) (t : Fin cfg1.N) : iblk1 V c 4 t = (V c main_v32 : S128x512.Idx → EReal) := by
  obtain ⟨-, -, -, -, -, -, -, -, -, -, e0, e1, -⟩ := idx1 t
  funext y
  show (V c main_v32 : S128x512.Idx → EReal) (((cfg1.win 4).blk t).view.emb y) = (V c main_v32 : S128x512.Idx → EReal) y
  refine congrArg _ (funext fun a => Fin.ext ?_)
  match a with
  | ⟨0, _⟩ => show win1_4.index t (0 : Fin 2) * 128 + 1 * (y 0).val = (y 0).val; rw [e0]; omega
  | ⟨1, _⟩ => show win1_4.index t (1 : Fin 2) * 512 + 1 * (y 1).val = (y 1).val; rw [e1]; omega

theorem blk5 (c : Dev nD) (t : Fin cfg1.N) : iblk1 V c 5 t = (V c main_v27 : S1x512.Idx → EReal) := by
  obtain ⟨-, -, -, -, -, -, -, -, -, -, -, -, e0, e1, -⟩ := idx1 t
  funext y
  show (V c main_v27 : S1x512.Idx → EReal) (((cfg1.win 5).blk t).view.emb y) = (V c main_v27 : S1x512.Idx → EReal) y
  refine congrArg _ (funext fun a => Fin.ext ?_)
  match a with
  | ⟨0, _⟩ => show win1_5.index t (0 : Fin 2) * 1 + 1 * (y 0).val = (y 0).val; rw [e0]; omega
  | ⟨1, _⟩ => show win1_5.index t (1 : Fin 2) * 512 + 1 * (y 1).val = (y 1).val; rw [e1]; omega

theorem blk6 (c : Dev nD) (t : Fin cfg1.N) : iblk1 V c 6 t = (V c main_v33 : S128x512.Idx → EReal) := by
  obtain ⟨-, -, -, -, -, -, -, -, -, -, -, -, -, -, e0, e1, -⟩ := idx1 t
  funext y
  show (V c main_v33 : S128x512.Idx → EReal) (((cfg1.win 6).blk t).view.emb y) = (V c main_v33 : S128x512.Idx → EReal) y
  refine congrArg _ (funext fun a => Fin.ext ?_)
  match a with
  | ⟨0, _⟩ => show win1_6.index t (0 : Fin 2) * 128 + 1 * (y 0).val = (y 0).val; rw [e0]; omega
  | ⟨1, _⟩ => show win1_6.index t (1 : Fin 2) * 512 + 1 * (y 1).val = (y 1).val; rw [e1]; omega

theorem blk7 (c : Dev nD) (t : Fin cfg1.N) : iblk1 V c 7 t = (V c main_v29 : S1x512.Idx → EReal) := by
  obtain ⟨-, -, -, -, -, -, -, -, -, -, -, -, -, -, -, -, e0, e1, -⟩ := idx1 t
  funext y
  show (V c main_v29 : S1x512.Idx → EReal) (((cfg1.win 7).blk t).view.emb y) = (V c main_v29 : S1x512.Idx → EReal) y
  refine congrArg _ (funext fun a => Fin.ext ?_)
  match a with
  | ⟨0, _⟩ => show win1_7.index t (0 : Fin 2) * 1 + 1 * (y 0).val = (y 0).val; rw [e0]; omega
  | ⟨1, _⟩ => show win1_7.index t (1 : Fin 2) * 512 + 1 * (y 1).val = (y 1).val; rw [e1]; omega

theorem blk8 (c : Dev nD) (t : Fin cfg1.N) : iblk1 V c 8 t = (V c main_v34 : S128x512.Idx → EReal) := by
  obtain ⟨-, -, -, -, -, -, -, -, -, -, -, -, -, -, -, -, -, -, e0, e1, -⟩ := idx1 t
  funext y
  show (V c main_v34 : S128x512.Idx → EReal) (((cfg1.win 8).blk t).view.emb y) = (V c main_v34 : S128x512.Idx → EReal) y
  refine congrArg _ (funext fun a => Fin.ext ?_)
  match a with
  | ⟨0, _⟩ => show win1_8.index t (0 : Fin 2) * 128 + 1 * (y 0).val = (y 0).val; rw [e0]; omega
  | ⟨1, _⟩ => show win1_8.index t (1 : Fin 2) * 512 + 1 * (y 1).val = (y 1).val; rw [e1]; omega

theorem blk9 (c : Dev nD) (t : Fin cfg1.N) : iblk1 V c 9 t = (V c main_v31 : S1x512.Idx → EReal) := by
  obtain ⟨-, -, -, -, -, -, -, -, -, -, -, -, -, -, -, -, -, -, -, -, e0, e1, -⟩ := idx1 t
  funext y
  show (V c main_v31 : S1x512.Idx → EReal) (((cfg1.win 9).blk t).view.emb y) = (V c main_v31 : S1x512.Idx → EReal) y
  refine congrArg _ (funext fun a => Fin.ext ?_)
  match a with
  | ⟨0, _⟩ => show win1_9.index t (0 : Fin 2) * 1 + 1 * (y 0).val = (y 0).val; rw [e0]; omega
  | ⟨1, _⟩ => show win1_9.index t (1 : Fin 2) * 512 + 1 * (y 1).val = (y 1).val; rw [e1]; omega

theorem blk10 (c : Dev nD) (t : Fin cfg1.N) : iblk1 V c 10 t = (V c main_v35 : S128x16.Idx → EReal) := by
  obtain ⟨-, -, -, -, -, -, -, -, -, -, -, -, -, -, -, -, -, -, -, -, -, -, e0, e1, -⟩ := idx1 t
  funext y
  show (V c main_v35 : S128x16.Idx → EReal) (((cfg1.win 10).blk t).view.emb y) = (V c main_v35 : S128x16.Idx → EReal) y
  refine congrArg _ (funext fun a => Fin.ext ?_)
  match a with
  | ⟨0, _⟩ => show win1_10.index t (0 : Fin 2) * 128 + 1 * (y 0).val = (y 0).val; rw [e0]; omega
  | ⟨1, _⟩ => show win1_10.index t (1 : Fin 2) * 16 + 1 * (y 1).val = (y 1).val; rw [e1]; omega

theorem blk11 (c : Dev nD) (t : Fin cfg1.N) : iblk1 V c 11 t = (V c main_v36 : S1x16.Idx → EReal) := by
  obtain ⟨-, -, -, -, -, -, -, -, -, -, -, -, -, -, -, -, -, -, -, -, -, -, -, -, e0, e1⟩ := idx1 t
  funext y
  show (V c main_v36 : S1x16.Idx → EReal) (((cfg1.win 11).blk t).view.emb y) = (V c main_v36 : S1x16.Idx → EReal) y
  refine congrArg _ (funext fun a => Fin.ext ?_)
  match a with
  | ⟨0, _⟩ => show win1_11.index t (0 : Fin 2) * 1 + 1 * (y 0).val = (y 0).val; rw [e0]; omega
  | ⟨1, _⟩ => show win1_11.index t (1 : Fin 2) * 16 + 1 * (y 1).val = (y 1).val; rw [e1]; omega

theorem emb12 (t : Fin cfg1.N) (p : Fin 2000) (r : Fin 16) :
    ((cfg1.win 12).blk t).view.emb (ix2 p r) = ix2 (rowAt t p) r := by
  obtain ⟨-, -, -, -, -, -, e0, e1, -⟩ := idx1 t
  refine funext fun a => Fin.ext ?_
  match a with
  | ⟨0, _⟩ => show win1_12.index t (0 : Fin 2) * 2000 + 1 * p.val = 2000 * t.val + p.val; rw [e0]; omega
  | ⟨1, _⟩ => show win1_12.index t (1 : Fin 2) * 16 + 1 * r.val = r.val; rw [e1]; omega

/-! ## The whole array -/

/-- The chain of the whole arrays the launch finds. -/
def result (c : Dev nD) : S100000x16.Idx → EReal :=
  chain (reluIn (P := 100000) (V c main_v11) (V c main_v24) (V c main_v13_1) (V c main_v25))
    (V c main_v32) (rowOfBlock (V c main_v27)) (V c main_v33) (rowOfBlock (V c main_v29))
    (V c main_v34) (rowOfBlock (V c main_v31)) (V c main_v35) (rowOfBlock (V c main_v36))

theorem flushed12 (c : Dev nD) (t : Fin cfg1.N) :
    (dat1 V c).flushed 12 t = ((cfg1.win 12).blk t).view.read (Elt Ideal) (result V c) := by
  show (cfg1.win 12).cut (grid1.coords t) ((dat1 V c).after 12 t) = _
  rw [after1_12]
  unfold out1_12
  rw [View.canon_unit_zero hz]
  simp only [View.ld_unit_zero (S := S2000x128) hz, View.ld_unit_zero (S := S2000x1) hz, View.ld_unit_zero (S := S1x128) hz,
    View.ld_unit_zero (S := S128x512) hz, View.ld_unit_zero (S := S1x512) hz, View.ld_unit_zero (S := S128x16) hz,
    View.ld_unit_zero (S := S1x16) hz]
  funext y
  obtain ⟨p, r, rfl⟩ : ∃ (p : Fin 2000) (r : Fin 16), y = ix2 p r := ⟨y 0, y 1, eq_ix2 y⟩
  show k1_pay1 (F := Ideal) (k1_pay2 (F := Ideal) (iblk1 V c 1 t) (iblk1 V c 0 t) (iblk1 V c 2 t) (iblk1 V c 3 t) (iblk1 V c 4 t)
      (iblk1 V c 5 t) (iblk1 V c 6 t)) (iblk1 V c 7 t) (iblk1 V c 8 t) (iblk1 V c 9 t) (iblk1 V c 10 t) (iblk1 V c 11 t) (ix2 p r)
    = result V c (((cfg1.win 12).blk t).view.emb (ix2 p r))
  rw [emb12 t p r]
  refine (congrFun (body_eq (iblk1 V c 1 t) (iblk1 V c 0 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t)) (ix2 p r)).trans ?_
  rw [blk3 V c t, blk4 V c t, blk5 V c t, blk6 V c t, blk7 V c t, blk8 V c t, blk9 V c t, blk10 V c t, blk11 V c t]
  refine chain_congr _ _ _ _ _ _ _ _ (fun k => ?_) r
  rw [reluIn_ix2, reluIn_ix2, blk0 V c t p k, blk1 V c t p, blk2 V c t p k]

theorem cover12 (i : S100000x16.Idx) : ∃ t : Fin cfg1.N, (cfg1.win 12).flush t = true ∧ i ∈ ((cfg1.win 12).blk t).view.set := by
  have hN : cfg1.N = 50 := N_1
  have hi0 : (i 0).val < 100000 := idx2_lt0 i
  have hi1 : (i 1).val < 16 := idx2_lt1 i
  let t : Fin cfg1.N := ⟨(i 0).val / 2000, by omega⟩
  have ht : t.val = (i 0).val / 2000 := rfl
  obtain ⟨-, -, -, -, -, -, e0, e1, -⟩ := idx1 t
  refine ⟨t, flush1_12 t, ?_⟩
  show i ∈ ((View.whole main_v37).slice (win1_12.rect t)).set
  rw [View.set_slice_whole, Rect.mem_set_unit]
  intro a
  match a with
  | ⟨0, _⟩ => show win1_12.index t (0 : Fin 2) * 2000 ≤ (i 0).val ∧ (i 0).val < win1_12.index t (0 : Fin 2) * 2000 + 2000; rw [e0]; omega
  | ⟨1, _⟩ => show win1_12.index t (1 : Fin 2) * 16 ≤ (i 1).val ∧ (i 1).val < win1_12.index t (1 : Fin 2) * 16 + 16; rw [e1]; omega

/-- AFTER THE LAUNCH the result array holds the chain of the arrays the launch found. -/
theorem final12 (c : Dev nD) : (dat1 V c).arrAt 12 cfg1.N = result V c :=
  (dat1 V c).arrAt_eq_of_cover 12 (result V c) (fun t _ => flushed12 V c t) cover12

end Cert.KernelIdeal.Blocks1

end
-- ==== Proof.KernelHost.lean ====
/-
  The idealized kernel's host operations, read back to the argument arrays, and the second launch's input read
  as the specification's graph convolution.

  Between the launch memory and the result there are four stretches: host operations (the two integer rows, the degree
  count and its inverse square root as a column `d`, the transposed weight), the first launch (`P = (x · wᵀ) ⊙ d` and
  `S = P ⊙ d`), host operations again (gather the rows of `P` at the normalised sources, scatter-add them at the raw
  destinations into `A`; reshape and add the biases; transpose the weights), and the second launch. This file walks every
  buffer the second launch reads back through those stretches, and then reads `max(d ⊙ A + S + b, 0)` at an entry: the
  degree column is GraphConv's `dinv`, `A` is the sum over the edges that arrive of `xw[row] · dinv[row]`, `S` is the
  self-loop's term — GraphConv's scaled form, that is `Gnn.conv`.
-/
import proofs.«114264_j41979010351135_2_alg».proof.Proof.KernelBlocks0
import proofs.«114264_j41979010351135_2_alg».proof.Proof.KernelBlocks1
import proofs.«114264_j41979010351135_2_alg».proof.Proof.GnnSpec
import proofs.«114264_j41979010351135_2_alg».proof.Proof.LibVecScatter
import Idealize.ShloMosaic.Lib.StableHlo.Run
import Idealize.ShloMosaic.Lib.IdealHost

set_option maxRecDepth 16384

noncomputable section

namespace Cert.KernelIdeal.Host

open Cert.KernelIdeal Cert.KernelIdeal.Gen Idealize.ShloMosaic Idealize.ShloMosaic.TcCoe Idealize.SL.Sem Idealize.ShloMosaic.ValueIdx
open Idealize.ShloMosaic.StableHlo RowIndexing GraphConv

variable (m : (ℓ : Loc nD τ sig) → Buf (Elt Ideal) ℓ) (ρ : Dev nD → PrngReg) (c : Dev nD)

/-- The two rows of the edge list: sources, destinations. -/
abbrev srcK : IVec S1600000 32 :=
  shapeCast _ (extractStridedSlice S1x1600000 ![0, 0] (m ((c : Thread nD τ).loc main_arg1)) slices_S2x1600000_S1x1600000_0_0) shapeCasts_S1x1600000_S1600000
abbrev dstK : IVec S1600000 32 :=
  shapeCast _ (extractStridedSlice S1x1600000 ![1, 0] (m ((c : Thread nD τ).loc main_arg1)) slices_S2x1600000_S1x1600000_1_0) shapeCasts_S1x1600000_S1600000

/-- The degree column as the first stretch computes it. -/
abbrev dcolK : FVec Ideal S100000x1 .f32 :=
  shapeCast _ (Host.rsqrt (addf (Host.scatterAdd scatter_S100000_S1600000x1_S1600000_n_0_0_1
      (broadcastInDim S100000 ![] bcast_S_S100000 (constant S_ .f32 0x00000000#32))
      (broadcastInDim S1600000x1 ![0] bcast_S1600000_S1600000x1_0 (dstK m c))
      (broadcastInDim S1600000 ![] bcast_S_S1600000 (constant S_ .f32 0x3F800000#32)))
    (broadcastInDim S100000 ![] bcast_S_S100000 (constant S_ .f32 0x3F800000#32)))) shapeCasts_S100000_S100000x1

/-! ## After the first stretch -/

theorem w1_arg0 : W1 m ρ c (Proc.devRef .tc main_arg0) = m ((c : Thread nD τ).loc main_arg0) := by
  show StableHlo.after hostOps0 (W0 m ρ c) (Proc.devRef .tc main_arg0) = _
  after_results <;> rfl

theorem w1_v12 : W1 m ρ c (Proc.devRef .tc main_v12) = transpose S256x128 [1, 0] (m ((c : Thread nD τ).loc main_arg2)) transposes_S128x256_S256x128_1_0 := by
  show StableHlo.after hostOps0 (W0 m ρ c) (Proc.devRef .tc main_v12) = _
  after_results <;> rfl

theorem w1_v1 : W1 m ρ c (Proc.devRef .tc main_v1) = srcK m c := by
  show StableHlo.after hostOps0 (W0 m ρ c) (Proc.devRef .tc main_v1) = _
  after_results <;> rfl

theorem w1_v3 : W1 m ρ c (Proc.devRef .tc main_v3) = dstK m c := by
  show StableHlo.after hostOps0 (W0 m ρ c) (Proc.devRef .tc main_v3) = _
  after_results <;> rfl

theorem w1_v11 : W1 m ρ c (Proc.devRef .tc main_v11) = dcolK m c := by
  show StableHlo.after hostOps0 (W0 m ρ c) (Proc.devRef .tc main_v11) = _
  after_results <;> rfl

/-! ## After the first launch -/

theorem w2_v1 : W2 m ρ c (Proc.devRef .tc main_v1) = srcK m c := (W2_of_ne m ρ c main_v1 (by decide)).trans (w1_v1 m ρ c)
theorem w2_v3 : W2 m ρ c (Proc.devRef .tc main_v3) = dstK m c := (W2_of_ne m ρ c main_v3 (by decide)).trans (w1_v3 m ρ c)
theorem w2_v11 : W2 m ρ c (Proc.devRef .tc main_v11) = dcolK m c :=
  ((W2_arr m ρ c 2).trans (((dat0 (V1 m ρ) c).arrAt_in 2 rfl _).trans (A_eq0 (V1 m ρ) c 2))).trans (w1_v11 m ρ c)
theorem w2_arg3 : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results <;> rfl)
theorem w2_arg4 : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results <;> rfl)
theorem w2_arg6 : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results <;> rfl)
theorem w2_arg7 : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results <;> rfl)
theorem w2_arg8 : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results <;> rfl)
theorem w2_arg10 : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results <;> rfl)
theorem w2_arg11 : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results <;> rfl)
theorem w2_arg12 : W2 m ρ c (Proc.devRef .tc main_arg12) = m ((c : Thread nD τ).loc main_arg12) :=
  (W2_of_ne m ρ c main_arg12 (by decide)).trans (by
    show StableHlo.after hostOps0 (W0 m ρ c) (Proc.devRef .tc main_arg12) = _
    after_results <;> rfl)
theorem w2_arg14 : W2 m ρ c (Proc.devRef .tc main_arg14) = m ((c : Thread nD τ).loc main_arg14) :=
  (W2_of_ne m ρ c main_arg14 (by decide)).trans (by
    show StableHlo.after hostOps0 (W0 m ρ c) (Proc.devRef .tc main_arg14) = _
    after_results <;> rfl)
theorem w2_arg15 : W2 m ρ c (Proc.devRef .tc main_arg15) = m ((c : Thread nD τ).loc main_arg15) :=
  (W2_of_ne m ρ c main_arg15 (by decide)).trans (by
    show StableHlo.after hostOps0 (W0 m ρ c) (Proc.devRef .tc main_arg15) = _
    after_results <;> rfl)
theorem w2_arg16 : W2 m ρ c (Proc.devRef .tc main_arg16) = m ((c : Thread nD τ).loc main_arg16) :=
  (W2_of_ne m ρ c main_arg16 (by decide)).trans (by
    show StableHlo.after hostOps0 (W0 m ρ c) (Proc.devRef .tc main_arg16) = _
    after_results <;> rfl)
theorem w2_arg17 : W2 m ρ c (Proc.devRef .tc main_arg17) = m ((c : Thread nD τ).loc main_arg17) :=
  (W2_of_ne m ρ c main_arg17 (by decide)).trans (by
    show StableHlo.after hostOps0 (W0 m ρ c) (Proc.devRef .tc main_arg17) = _
    after_results <;> rfl)

/-- The first launch's two results, of the argument arrays. -/
theorem w2_v13_0 : W2 m ρ c (Proc.devRef .tc main_v13_0)
    = Blocks0.preOf (m ((c : Thread nD τ).loc main_arg0)) (transpose S256x128 [1, 0] (m ((c : Thread nD τ).loc main_arg2)) transposes_S128x256_S256x128_1_0) (dcolK m c) := by
  refine (W2_arr m ρ c 3).trans ((Blocks0.final3 (V1 m ρ) c).trans ?_)
  unfold Blocks0.pre
  show Blocks0.preOf (W1 m ρ c (Proc.devRef .tc main_arg0)) (W1 m ρ c (Proc.devRef .tc main_v12)) (W1 m ρ c (Proc.devRef .tc main_v11)) = _
  rw [w1_arg0, w1_v12, w1_v11]

theorem w2_v13_1 : W2 m ρ c (Proc.devRef .tc main_v13_1)
    = Blocks0.selfOf (m ((c : Thread nD τ).loc main_arg0)) (transpose S256x128 [1, 0] (m ((c : Thread nD τ).loc main_arg2)) transposes_S128x256_S256x128_1_0) (dcolK m c) := by
  refine (W2_arr m ρ c 4).trans ((Blocks0.final4 (V1 m ρ) c).trans ?_)
  unfold Blocks0.selfTerm
  show Blocks0.selfOf (W1 m ρ c (Proc.devRef .tc main_arg0)) (W1 m ρ c (Proc.devRef .tc main_v12)) (W1 m ρ c (Proc.devRef .tc main_v11)) = _
  rw [w1_arg0, w1_v12, w1_v11]

/-! ## After the second stretch: what the second launch finds -/

theorem v3_v11 : V3 m ρ c main_v11 = dcolK m c := by
  show StableHlo.after hostOps1 (W2 m ρ c) (Proc.devRef .tc main_v11) = _
  after_results
  rw [w2_v11]
  try rfl

theorem v3_v13_1 : V3 m ρ c main_v13_1
    = Blocks0.selfOf (m ((c : Thread nD τ).loc main_arg0)) (transpose S256x128 [1, 0] (m ((c : Thread nD τ).loc main_arg2)) transposes_S128x256_S256x128_1_0) (dcolK m c) := by
  show StableHlo.after hostOps1 (W2 m ρ c) (Proc.devRef .tc main_v13_1) = _
  after_results
  rw [w2_v13_1]
  try rfl

theorem v3_v25 : V3 m ρ c main_v25 = shapeCast S1x128 (m ((c : Thread nD τ).loc main_arg3)) shapeCasts_S128_S1x128 := by
  show StableHlo.after hostOps1 (W2 m ρ c) (Proc.devRef .tc main_v25) = _
  after_results
  rw [w2_arg3]
  try rfl

theorem v3_v36 : V3 m ρ c main_v36 = shapeCast S1x16 (m ((c : Thread nD τ).loc main_arg17)) shapeCasts_S16_S1x16 := by
  show StableHlo.after hostOps1 (W2 m ρ c) (Proc.devRef .tc main_v36) = _
  after_results
  rw [w2_arg17]
  try rfl

theorem v3_v32 : V3 m ρ c main_v32 = transpose S128x512 [1, 0] (m ((c : Thread nD τ).loc main_arg4)) transposes_S512x128_S128x512_1_0 := by
  show StableHlo.after hostOps1 (W2 m ρ c) (Proc.devRef .tc main_v32) = _
  after_results
  rw [w2_arg4]
  try rfl
theorem v3_v33 : V3 m ρ c main_v33 = transpose S128x512 [1, 0] (m ((c : Thread nD τ).loc main_arg8)) transposes_S512x128_S128x512_1_0 := by
  show StableHlo.after hostOps1 (W2 m ρ c) (Proc.devRef .tc main_v33) = _
  after_results
  rw [w2_arg8]
  try rfl
theorem v3_v34 : V3 m ρ c main_v34 = transpose S128x512 [1, 0] (m ((c : Thread nD τ).loc main_arg12)) transposes_S512x128_S128x512_1_0 := by
  show StableHlo.after hostOps1 (W2 m ρ c) (Proc.devRef .tc main_v34) = _
  after_results
  rw [w2_arg12]
  try rfl
theorem v3_v35 : V3 m ρ c main_v35 = transpose S128x16 [1, 0] (m ((c : Thread nD τ).loc main_arg16)) transposes_S16x128_S128x16_1_0 := by
  show StableHlo.after hostOps1 (W2 m ρ c) (Proc.devRef .tc main_v35) = _
  after_results
  rw [w2_arg16]
  try rfl
theorem v3_v27 : V3 m ρ c main_v27 = shapeCast S1x512 (addf (F := Ideal) (s := S512) (φ := .f32) (m ((c : Thread nD τ).loc main_arg6)) (m ((c : Thread nD τ).loc main_arg7))) shapeCasts_S512_S1x512 := by
  show StableHlo.after hostOps1 (W2 m ρ c) (Proc.devRef .tc main_v27) = _
  after_results
  rw [w2_arg6, w2_arg7]
  try rfl
theorem v3_v29 : V3 m ρ c main_v29 = shapeCast S1x512 (addf (F := Ideal) (s := S512) (φ := .f32) (m ((c : Thread nD τ).loc main_arg10)) (m ((c : Thread nD τ).loc main_arg11))) shapeCasts_S512_S1x512 := by
  show StableHlo.after hostOps1 (W2 m ρ c) (Proc.devRef .tc main_v29) = _
  after_results
  rw [w2_arg10, w2_arg11]
  try rfl
theorem v3_v31 : V3 m ρ c main_v31 = shapeCast S1x512 (addf (F := Ideal) (s := S512) (φ := .f32) (m ((c : Thread nD τ).loc main_arg14)) (m ((c : Thread nD τ).loc main_arg15))) shapeCasts_S512_S1x512 := by
  show StableHlo.after hostOps1 (W2 m ρ c) (Proc.devRef .tc main_v31) = _
  after_results
  rw [w2_arg14, w2_arg15]
  try rfl

/-- The aggregated messages: the rows of the first launch's first result, gathered at the normalised sources and
    scatter-added at the raw destinations. -/
theorem v3_v24 : V3 m ρ c main_v24
    = Host.scatterAdd (F := Ideal) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 (dstK m c))
        (extf (F := Ideal) .f32 (Host.gather gather_S100000x128_S1600000x1_S1600000x128_1_0_n_n_0_1_1128
          (Blocks0.preOf (m ((c : Thread nD τ).loc main_arg0)) (transpose S256x128 [1, 0] (m ((c : Thread nD τ).loc main_arg2)) transposes_S128x256_S256x128_1_0) (dcolK m c))
          (broadcastInDim S1600000x1 ![0] bcast_S1600000_S1600000x1_0
            (select (cmpi .slt (srcK m c) (broadcastInDim S1600000 ![] bcast_S_S1600000 (constantI S_ 32 0#32)))
              (addi (srcK m c) (broadcastInDim S1600000 ![] bcast_S_S1600000 (constantI S_ 32 100000#32))) (srcK m c)))) bitsLt_bf16_f32) := by
  show StableHlo.after hostOps1 (W2 m ρ c) (Proc.devRef .tc main_v24) = _
  after_results
  rw [w2_v3, w2_v13_0, w2_v1]
  try rfl

end Cert.KernelIdeal.Host

end
-- ==== Proof.KernelValue.lean ====
/-
  The idealized kernel's result is the specification.

  Entry by entry: the degree column the first stretch computes is GraphConv's `dinv` (a scatter of ones counts the edges
  that arrive, plus one); the first launch's results are `xw[i] · dinv i` and `xw[i] · dinv i · dinv i`; the aggregated
  messages are the sum, over the edges that arrive at `i`, of the first of these at the row the edge's source reads. So
  what the second launch clamps at zero is GraphConv's scaled form — `Gnn.conv` —, its weights are the transposed
  arguments and its bias rows the argument biases added, and its result is `Gnn.out` of the arguments.
-/
import proofs.«114264_j41979010351135_2_alg».proof.Proof.KernelHost

set_option maxRecDepth 16384

noncomputable section

namespace Cert.KernelIdeal.Value

open Cert.KernelIdeal Cert.KernelIdeal.Gen Cert.KernelIdeal.Host Idealize.ShloMosaic Idealize.ShloMosaic.TcCoe Idealize.SL.Sem
  Idealize.ShloMosaic.ValueIdx RowIndexing GraphConv

variable (m : (ℓ : Loc nD τ sig) → Buf (Elt Ideal) ℓ) (ρ : Dev nD → PrngReg) (c : Dev nD)

theorem rows_gather : IsRowGather gather_S100000x128_S1600000x1_S1600000x128_1_0_n_n_0_1_1128 := ⟨rfl, rfl, rfl, rfl, rfl, rfl⟩
theorem rows_scatter : IsRowScatter scatter_S100000x128_S1600000x1_S1600000x128_1_0_0_1 := ⟨rfl, rfl, rfl, rfl⟩
theorem vec_scatter : VecScatter.IsVecScatter scatter_S100000_S1600000x1_S1600000_n_0_0_1 := ⟨rfl, rfl, rfl, rfl⟩

/-- The raw destination of edge `e`. -/
def dstF : Fin 1600000 → BitVec 32 := fun e => dstK m c (ix1 e)

/-! ## The degree column -/

/-- The inverse square root of a sum of two arrays, read at an index. -/
theorem rsqrt_add_apply {s : Shape} (a b : FVec Ideal s .f32) (j : s.Idx) :
    Host.rsqrt (addf a b) j = Ideal.rsqrt (a j + b j) := rfl

theorem dcol_entry (i : Fin 100000) : dcolK m c (ix2 i (0 : Fin 1)) = dinv (dstF m c) i := by
  show shapeCast S100000x1 (Host.rsqrt (addf (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 (dstK m c))
      (broadcastInDim S1600000 ![] bcast_S_S1600000 (constant (F := Ideal) S_ .f32 0x3F800000#32)))
    (broadcastInDim S100000 ![] bcast_S_S100000 (constant (F := Ideal) S_ .f32 0x3F800000#32)))) shapeCasts_S100000_S100000x1 (ix2 i (0 : Fin 1)) = _
  rw [KeepDims.shapeCast_a_a1_apply, rsqrt_add_apply, VecScatter.vecScatterAdd_apply vec_scatter, Gnn.zero_entry, Gnn.one_entry]
  unfold dinv deg into
  refine congrArg Ideal.rsqrt (congrArg (fun s => s + (1 : EReal)) (congrArg (fun s => (0 : EReal) + s) ?_))
  refine Finset.sum_congr (Finset.filter_congr fun e _ => ?_) fun e _ => Gnn.one_entry _ _
  rw [BroadcastReads.vec_to_col]
  rfl

/-! ## The first launch's results -/

variable (a0 : FVec Ideal S100000x256 .f32) (a2 : FVec Ideal S128x256 .f32) (d : FVec Ideal S100000x1 .f32)

theorem pre_entry (r : Fin 100000) (k : Fin 128) :
    Blocks0.preOf a0 (transpose S256x128 [1, 0] a2 transposes_S128x256_S256x128_1_0) d (ix2 r k)
      = Gnn.xw a0 a2 (ix2 r k) * d (ix2 r (0 : Fin 1)) := by
  rw [Blocks0.preOf_ix2, Gnn.xw_ix2]
  refine congrArg (fun s => s * d (ix2 r (0 : Fin 1))) (Finset.sum_congr rfl fun κ _ => ?_)
  rw [transpose_apply [1, 0] a2 transposes_S128x256_S256x128_1_0 (ix2 κ k) (ix2 k κ) (fun b => match b with
    | ⟨0, _⟩ => rfl
    | ⟨1, _⟩ => rfl)]

theorem self_entry (r : Fin 100000) (k : Fin 128) :
    Blocks0.selfOf a0 (transpose S256x128 [1, 0] a2 transposes_S128x256_S256x128_1_0) d (ix2 r k)
      = Gnn.xw a0 a2 (ix2 r k) * d (ix2 r (0 : Fin 1)) * d (ix2 r (0 : Fin 1)) := by
  show Blocks0.preOf a0 (transpose S256x128 [1, 0] a2 transposes_S128x256_S256x128_1_0) d (ix2 r k) * d (ix2 r (0 : Fin 1)) = _
  rw [pre_entry]

/-! ## The aggregated messages -/

theorem agg_entry (i : Fin 100000) (k : Fin 128) :
    (V3 m ρ c main_v24 : S100000x128.Idx → EReal) (ix2 i k)
      = 0 + ∑ e ∈ into (dstF m c) i, Gnn.xw (m ((c : Thread nD τ).loc main_arg0)) (m ((c : Thread nD τ).loc main_arg2)) (ix2 (Gnn.rowOf (srcK m c) e) k)
          * dinv (dstF m c) (Gnn.rowOf (srcK m c) e) := by
  rw [v3_v24, rowScatterAdd_apply rows_scatter, Gnn.zero_entry]
  refine congrArg (fun s => (0 : EReal) + s) (Finset.sum_congr (Finset.filter_congr fun e _ => ?_) fun e _ => ?_)
  · rw [BroadcastReads.vec_to_col]
    rfl
  · rw [extf_apply, rowGather_apply (by norm_num) rows_gather, pre_entry, dcol_entry, BroadcastReads.vec_to_col]
    rfl

/-! ## What the second launch clamps at zero is the convolution layer -/

theorem conv_in :
    Blocks1.reluIn (P := 100000) (V3 m ρ c main_v11) (V3 m ρ c main_v24) (V3 m ρ c main_v13_1) (V3 m ρ c main_v25)
      = Gnn.conv (Gnn.xw (m ((c : Thread nD τ).loc main_arg0)) (m ((c : Thread nD τ).loc main_arg2))) (srcK m c) (dstK m c)
          (m ((c : Thread nD τ).loc main_arg3)) := by
  funext j
  obtain ⟨i, k, rfl⟩ : ∃ (i : Fin 100000) (k : Fin 128), j = ix2 i k := ⟨j 0, j 1, eq_ix2 j⟩
  rw [Blocks1.reluIn_ix2, Gnn.conv_ix2, agg_entry, v3_v11, dcol_entry, v3_v13_1, self_entry, dcol_entry, v3_v25, Gnn.shapeCast_row_apply]
  rfl

/-! ## The weights and the bias rows -/

theorem bias_row (b b' : FVec Ideal S512 .f32) :
    Blocks1.rowOfBlock (shapeCast S1x512 (addf (F := Ideal) b b') shapeCasts_S512_S1x512) = Gnn.bsum b b' := by
  funext q
  show shapeCast S1x512 (addf (F := Ideal) b b') shapeCasts_S512_S1x512 (ix2 (0 : Fin 1) q) = _
  rw [Gnn.shapeCast_row_apply]
  rfl

theorem head_row (b : FVec Ideal S16 .f32) :
    Blocks1.rowOfBlock (shapeCast S1x16 b shapeCasts_S16_S1x16) = fun q => b (ix1 q) := by
  funext q
  show shapeCast S1x16 b shapeCasts_S16_S1x16 (ix2 (0 : Fin 1) q) = _
  rw [Gnn.shapeCast_row_apply]

/-- THE KERNEL'S RESULT: the last boundary's contents at the result buffer are the specification of the arguments. -/
theorem result_eq : W4 m ρ c (Proc.devRef .tc main_v37)
    = Gnn.out (m ((c : Thread nD τ).loc main_arg0)) (srcK m c) (dstK m c) (m ((c : Thread nD τ).loc main_arg2)) (m ((c : Thread nD τ).loc main_arg3))
        (m ((c : Thread nD τ).loc main_arg4)) (m ((c : Thread nD τ).loc main_arg6)) (m ((c : Thread nD τ).loc main_arg7))
        (m ((c : Thread nD τ).loc main_arg8)) (m ((c : Thread nD τ).loc main_arg10)) (m ((c : Thread nD τ).loc main_arg11))
        (m ((c : Thread nD τ).loc main_arg12)) (m ((c : Thread nD τ).loc main_arg14)) (m ((c : Thread nD τ).loc main_arg15))
        (m ((c : Thread nD τ).loc main_arg16)) (m ((c : Thread nD τ).loc main_arg17)) := by
  refine (W4_arr m ρ c 12).trans ((Blocks1.final12 (V3 m ρ) c).trans ?_)
  unfold Blocks1.result Gnn.out
  rw [conv_in, v3_v32, v3_v33, v3_v34, v3_v35, v3_v27, v3_v29, v3_v31, v3_v36, bias_row, bias_row, bias_row, head_row,
    Gnn.transpose_eq_tr, Gnn.transpose_eq_tr, Gnn.transpose_eq_tr, Gnn.transpose_eq_tr]

end Cert.KernelIdeal.Value

end
-- ==== Proof.lean ====
/-
  The proof of `Cert.Claim`: a graph-convolution layer, three recurrent steps from a zero state and a linear head, computed
  by two kernel launches among host operations, against the plain array program.

  THE MATHEMATICS. Nodes `0 … 99999`, 1600000 edges, features `x`. With `deg i` one plus the number of edges that arrive at
  `i` and `dinv = 1 / sqrt deg`, the reference appends one loop per node to the edge list, weights every position by
  `dinv[src] · dinv[dst]`, and adds up what arrives at each node. The kernel scales the rows of `x · wᵀ` by `dinv` once (first
  launch), adds up the scaled rows that arrive at `i` (host gather and scatter-add), scales the sum by `dinv i` and adds the
  loop's term `xw[i] · dinv i · dinv i` apart (second launch). The two agree because `dinv[dst] = dinv i` on everything
  that arrives at `i`, and because `dinv i` is a real number in `[0, ∞)` — a degree is at least one —, which may be taken
  out of a sum of extended reals whatever the terms are: no finiteness of the inputs is used. The guard
  `where(deg > 0, ·, 0)` of the reference always takes its first branch. After the layer both programs clamp at zero and
  run the same dense chain; the kernel adds each step's two bias vectors before the layer and the reference one after the
  other (associativity), and spells the logistic function as one operation where the reference writes `1 / (1 + exp(-x))`
  (one function on the extended reals). Rounding to bf16 is the identity at the ideal instance.

  THE PARTS. LibGraphSum, LibGraphConv: the arithmetic above. LibRecurrent (over LibDenseLayer): the dense chain and its two
  spellings. GnnSpec: the result as ONE function `Gnn.out` of the argument arrays. RefGraph, RefChain, RefValue: the
  reference's run ends at `Gnn.out`. KernelBlocks0, KernelBlocks1: each launch's output arrays as whole-array functions of
  what the launch finds (a row block of the output depends on that row block of the inputs; the blocks tile the rows).
  KernelRun: the kernel's run with its result buffer named. KernelHost, KernelValue: that buffer is `Gnn.out`.
  The three frames: the two kernels' are the generated frame certificates; the reference's is its run with the result
  dropped. `preserves` has no conjunct: the ideal pass rewrote nothing.
-/
import proofs.«114264_j41979010351135_2_alg».proof.Defs
import proofs.«114264_j41979010351135_2_alg».proof.Proof.Gen.Kernel
import proofs.«114264_j41979010351135_2_alg».proof.Proof.Gen.Kernel.Skeleton
import proofs.«114264_j41979010351135_2_alg».proof.Proof.Gen.Kernel.Launch
import proofs.«114264_j41979010351135_2_alg».proof.Proof.Gen.Kernel.Points
import proofs.«114264_j41979010351135_2_alg».proof.Proof.Gen.Kernel.Frame
import proofs.«114264_j41979010351135_2_alg».proof.Proof.Gen.KernelIdeal
import proofs.«114264_j41979010351135_2_alg».proof.Proof.Gen.KernelIdeal.Skeleton
import proofs.«114264_j41979010351135_2_alg».proof.Proof.Gen.KernelIdeal.Launch
import proofs.«114264_j41979010351135_2_alg».proof.Proof.Gen.KernelIdeal.Points
import proofs.«114264_j41979010351135_2_alg».proof.Proof.Gen.KernelIdeal.Frame
import proofs.«114264_j41979010351135_2_alg».proof.Proof.Gen.ReferenceIdeal
import proofs.«114264_j41979010351135_2_alg».proof.Proof.Gen.Pre_finite_inputs
import proofs.«114264_j41979010351135_2_alg».proof.Proof.RefRunPatched
import proofs.«114264_j41979010351135_2_alg».proof.Proof.RefReadPatched
import proofs.«114264_j41979010351135_2_alg».proof.Proof.RefValue
import proofs.«114264_j41979010351135_2_alg».proof.Proof.KernelRun
import proofs.«114264_j41979010351135_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation: nothing to preserve. -/
theorem preserves : Cert.preserves_Kernel_KernelIdeal := trivial

/-- Both runs end with their result buffers at `Gnn.out` of arguments that agree. -/
theorem algebraic : Cert.algebraic_KernelIdeal_ReferenceIdeal := by
  intro m ρ m' ρ' _ hagree
  refine ⟨fun c => Gnn.out (m ((c.tc : Thread Cert.KernelIdeal.nD Cert.KernelIdeal.τ).loc Cert.KernelIdeal.main_arg0)) (Cert.KernelIdeal.Host.srcK m c) (Cert.KernelIdeal.Host.dstK m c)
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17)), ?_, ?_⟩
  · exact (θ_run Cert.KernelIdeal.defs _ _).mono
      (fun _ h c => ⟨(h c).1.trans (Cert.KernelIdeal.Value.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10, h11, h12, h13, h14, h15, h16, h17⟩ := hagree c
    rw [Cert.ReferenceIdeal.RefValue.result_eq, h0, h1, h2, h3, h4, h6, h7, h8, h10, h11, h12, h14, h15, h16, h17]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
